-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S1x512x256 : Shape := ⟨3, ![1, 512, 256]⟩
abbrev S768x100000 : Shape := ⟨2, ![768, 100000]⟩
abbrev S768x256 : Shape := ⟨2, ![768, 256]⟩
abbrev S768 : Shape := ⟨1, ![768]⟩
abbrev S100000x256 : Shape := ⟨2, ![100000, 256]⟩
abbrev S100000 : Shape := ⟨1, ![100000]⟩
abbrev S_ : Shape := ⟨0, ![]⟩

class Facts : Prop where
  bcast_S_S1x512x256 : S_.BroadcastsInDim S1x512x256 (![] : Fin 0 → Fin S1x512x256.rank)
  reducesTo_S1x512x256_S_d0_1_2 : S1x512x256.ReducesTo [0, 1, 2] S_
  h_S_ : 0 < S_.numel
  bcast_S_S768x100000 : S_.BroadcastsInDim S768x100000 (![] : Fin 0 → Fin S768x100000.rank)
  reducesTo_S768x100000_S_d0_1 : S768x100000.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S100000x256 : S_.BroadcastsInDim S100000x256 (![] : Fin 0 → Fin S100000x256.rank)
  reducesTo_S100000x256_S_d0_1 : S100000x256.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg6 : FVec F S768 .f32) (main_arg7 : FVec F S100000x256 .f32) (main_arg8 : FVec F S100000 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg6
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S100000x256 .f32 := Host.absf main_arg7
  let main_cst_8 : FVec F S_ .f32 := constant S_ .f32 0x7F800000#32
  let main_v25 : FVec F S100000x256 .f32 := broadcastInDim S100000x256 ![] bcast_S_S100000x256 main_cst_8
  let main_v26 : IVec S100000x256 1 := cmpf .olt main_v24 main_v25
  let main_c_9 : IVec S_ 1 := constantI S_ 1 1#1
  let main_v27 : IVec S_ 1 := (fun x v => Host.reduce IntOp.andi x v reducesTo_S100000x256_S_d0_1 h_S_) main_v26 main_c_9
  let main_v28 : IVec S_ 1 := andi main_v23 main_v27
  let main_v29 : FVec F S100000 .f32 := Host.absf main_arg8
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  main_v33

def fn {F : FTy → Type} [FloatOps F] (main_arg0 : IVec S512 32) (main_arg1 : IVec S512 32) (main_arg2 : FVec F S1x512x256 .f32) (main_arg3 : FVec F S768x100000 .f32) (main_arg4 : FVec F S768x256 .f32) (main_arg5 : FVec F S768 .f32) (main_arg6 : FVec F S768 .f32) (main_arg7 : FVec F S100000x256 .f32) (main_arg8 : FVec F S100000 .f32) : IVec S_ 1 :=
  let main_v0 : FVec F S1x512x256 .f32 := Host.absf main_arg2
  let main_cst : FVec F S_ .f32 := constant S_ .f32 0x7F800000#32
  let main_v1 : FVec F S1x512x256 .f32 := broadcastInDim S1x512x256 ![] bcast_S_S1x512x256 main_cst
  let main_v2 : IVec S1x512x256 1 := cmpf .olt main_v0 main_v1
  let main_c : IVec S_ 1 := constantI S_ 1 1#1
  let main_v3 : IVec S_ 1 := (fun x v => Host.reduce IntOp.andi x v reducesTo_S1x512x256_S_d0_1_2 h_S_) main_v2 main_c
  let main_v4 : FVec F S768x100000 .f32 := Host.absf main_arg3
  let main_cst_0 : FVec F S_ .f32 := constant S_ .f32 0x7F800000#32
  let main_v5 : FVec F S768x100000 .f32 := broadcastInDim S768x100000 ![] bcast_S_S768x100000 main_cst_0
  let main_v6 : IVec S768x100000 1 := cmpf .olt main_v4 main_v5
  let main_c_1 : IVec S_ 1 := constantI S_ 1 1#1
  let main_v7 : IVec S_ 1 := (fun x v => Host.reduce IntOp.andi x v reducesTo_S768x100000_S_d0_1 h_S_) main_v6 main_c_1
  let main_v8 : IVec S_ 1 := andi main_v3 main_v7
  let main_v9 : FVec F S768x256 .f32 := Host.absf main_arg4
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768 .f32 := Host.absf main_arg5
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg6 main_arg7 main_arg8 main_v13 main_v16
-- ==== Kernel.lean ====
abbrev S512 : Shape := ⟨1, ![512]⟩
abbrev S1x512x256 : Shape := ⟨3, ![1, 512, 256]⟩
abbrev S768x100000 : Shape := ⟨2, ![768, 100000]⟩
abbrev S768x256 : Shape := ⟨2, ![768, 256]⟩
abbrev S768 : Shape := ⟨1, ![768]⟩
abbrev S100000x256 : Shape := ⟨2, ![100000, 256]⟩
abbrev S100000 : Shape := ⟨1, ![100000]⟩
abbrev S512x256 : Shape := ⟨2, ![512, 256]⟩
abbrev S_ : Shape := ⟨0, ![]⟩
abbrev S512x1 : Shape := ⟨2, ![512, 1]⟩
abbrev S1 : Shape := ⟨1, ![1]⟩
abbrev S1x1 : Shape := ⟨2, ![1, 1]⟩
abbrev S768x512 : Shape := ⟨2, ![768, 512]⟩
abbrev S512x768 : Shape := ⟨2, ![512, 768]⟩
abbrev S1x768 : Shape := ⟨2, ![1, 768]⟩
abbrev S256x768 : Shape := ⟨2, ![256, 768]⟩
abbrev S1x100000 : Shape := ⟨2, ![1, 100000]⟩
abbrev S512x100000 : Shape := ⟨2, ![512, 100000]⟩
abbrev S3072x256 : Shape := ⟨2, ![3072, 256]⟩
abbrev S1x3072 : Shape := ⟨2, ![1, 3072]⟩
abbrev S512x3072 : Shape := ⟨2, ![512, 3072]⟩
abbrev S256x3072 : Shape := ⟨2, ![256, 3072]⟩

abbrev nBuf : Space → Nat
  | .hbm => 78
  | .vmem => 7
  | .smem => 0
  | _ => 0

abbrev bufTy : (tb : Table) → Fin (tcTables nBuf tb) → BufTy
  | .hbm, ⟨0, _⟩ => ⟨S512, .i32⟩
  | .hbm, ⟨1, _⟩ => ⟨S512, .i32⟩
  | .hbm, ⟨2, _⟩ => ⟨S1x512x256, .f32⟩
  | .hbm, ⟨3, _⟩ => ⟨S768x100000, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S100000x256, .f32⟩
  | .hbm, ⟨8, _⟩ => ⟨S100000, .f32⟩
  | .hbm, ⟨9, _⟩ => ⟨S512x256, .f32⟩
  | .hbm, ⟨10, _⟩ => ⟨S_, .i32⟩
  | .hbm, ⟨11, _⟩ => ⟨S512, .i32⟩
  | .hbm, ⟨12, _⟩ => ⟨S512, .i1⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S512x1, .i32⟩
  | .hbm, ⟨18, _⟩ => ⟨S1, .i32⟩
  | .hbm, ⟨19, _⟩ => ⟨S_, .i32⟩
  | .hbm, ⟨20, _⟩ => ⟨S512x1, .i32⟩
  | .hbm, ⟨21, _⟩ => ⟨S512x1, .i1⟩
  | .hbm, ⟨22, _⟩ => ⟨S1x1, .i32⟩
  | .hbm, ⟨23, _⟩ => ⟨S512x1, .i32⟩
  | .hbm, ⟨24, _⟩ => ⟨S512x1, .i1⟩
  | .hbm, ⟨25, _⟩ => ⟨S512x1, .i1⟩
  | .hbm, ⟨26, _⟩ => ⟨S_, .i1⟩
  | .hbm, ⟨27, _⟩ => ⟨S512, .i1⟩
  | .hbm, ⟨28, _⟩ => ⟨S768x512, .f32⟩
  | .hbm, ⟨29, _⟩ => ⟨S768x512, .i1⟩
  | .hbm, ⟨30, _⟩ => ⟨S_, .f32⟩
  | .hbm, ⟨31, _⟩ => ⟨S768x512, .f32⟩
  | .hbm, ⟨32, _⟩ => ⟨S768x512, .f32⟩
  | .hbm, ⟨33, _⟩ => ⟨S512x768, .f32⟩
  | .hbm, ⟨34, _⟩ => ⟨S1x768, .f32⟩
  | .hbm, ⟨35, _⟩ => ⟨S512x768, .f32⟩
  | .hbm, ⟨36, _⟩ => ⟨S512x768, .f32⟩
  | .hbm, ⟨37, _⟩ => ⟨S256x768, .f32⟩
  | .hbm, ⟨38, _⟩ => ⟨S512x768, .f32⟩
  | .hbm, ⟨39, _⟩ => ⟨S1x768, .f32⟩
  | .hbm, ⟨40, _⟩ => ⟨S512x768, .f32⟩
  | .hbm, ⟨41, _⟩ => ⟨S512x768, .f32⟩
  | .hbm, ⟨42, _⟩ => ⟨S512x256, .f32⟩
  | .hbm, ⟨43, _⟩ => ⟨S512x256, .f32⟩
  | .hbm, ⟨44, _⟩ => ⟨S512x256, .f32⟩
  | .hbm, ⟨45, _⟩ => ⟨S512x256, .f32⟩
  | .hbm, ⟨46, _⟩ => ⟨S512x256, .f32⟩
  | .hbm, ⟨47, _⟩ => ⟨S512x256, .f32⟩
  | .hbm, ⟨48, _⟩ => ⟨S512x256, .f32⟩
  | .hbm, ⟨49, _⟩ => ⟨S512x256, .f32⟩
  | .hbm, ⟨50, _⟩ => ⟨S512x256, .f32⟩
  | .hbm, ⟨51, _⟩ => ⟨S_, .f32⟩
  | .hbm, ⟨52, _⟩ => ⟨S512x256, .f32⟩
  | .hbm, ⟨53, _⟩ => ⟨S512x256, .f32⟩
  | .hbm, ⟨54, _⟩ => ⟨S_, .f32⟩
  | .hbm, ⟨55, _⟩ => ⟨S512x256, .f32⟩
  | .hbm, ⟨56, _⟩ => ⟨S512x256, .f32⟩
  | .hbm, ⟨57, _⟩ => ⟨S512x256, .f32⟩
  | .hbm, ⟨58, _⟩ => ⟨S512x256, .f32⟩
  | .hbm, ⟨59, _⟩ => ⟨S512x256, .f32⟩
  | .hbm, ⟨60, _⟩ => ⟨S_, .f32⟩
  | .hbm, ⟨61, _⟩ => ⟨S512x256, .f32⟩
  | .hbm, ⟨62, _⟩ => ⟨S512x256, .f32⟩
  | .hbm, ⟨63, _⟩ => ⟨S_, .f32⟩
  | .hbm, ⟨64, _⟩ => ⟨S512x256, .f32⟩
  | .hbm, ⟨65, _⟩ => ⟨S512x256, .f32⟩
  | .hbm, ⟨66, _⟩ => ⟨S512x256, .f32⟩
  | .hbm, ⟨67, _⟩ => ⟨S512x256, .f32⟩
  | .hbm, ⟨68, _⟩ => ⟨S512x256, .f32⟩
  | .hbm, ⟨69, _⟩ => ⟨S_, .f32⟩
  | .hbm, ⟨70, _⟩ => ⟨S512x256, .f32⟩
  | .hbm, ⟨71, _⟩ => ⟨S512x256, .f32⟩
  | .hbm, ⟨72, _⟩ => ⟨S512x256, .f32⟩
  | .hbm, ⟨73, _⟩ => ⟨S512x256, .f32⟩
  | .hbm, ⟨74, _⟩ => ⟨S512x256, .f32⟩
  | .hbm, ⟨75, _⟩ => ⟨S1x100000, .f32⟩
  | .hbm, ⟨76, _⟩ => ⟨S512x100000, .f32⟩
  | .hbm, ⟨77, _⟩ => ⟨S1x512x256, .f32⟩
  | .local _ .vmem, ⟨0, _⟩ => ⟨S512x256, .f32⟩
  | .local _ .vmem, ⟨1, _⟩ => ⟨S3072x256, .f32⟩
  | .local _ .vmem, ⟨2, _⟩ => ⟨S3072x256, .f32⟩
  | .local _ .vmem, ⟨3, _⟩ => ⟨S1x3072, .f32⟩
  | .local _ .vmem, ⟨4, _⟩ => ⟨S1x3072, .f32⟩
  | .local _ .vmem, ⟨5, _⟩ => ⟨S512x3072, .f32⟩
  | .local _ .vmem, ⟨6, _⟩ => ⟨S512x3072, .f32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst : Ref sig .tc := ⟨.hbm, 51, rfl⟩
abbrev main_v20 : Ref sig .tc := ⟨.hbm, 52, rfl⟩
abbrev main_v21 : Ref sig .tc := ⟨.hbm, 53, rfl⟩
abbrev main_cst_0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_1 : Ref sig .tc := ⟨.hbm, 60, rfl⟩
abbrev main_v27 : Ref sig .tc := ⟨.hbm, 61, rfl⟩
abbrev main_v28 : Ref sig .tc := ⟨.hbm, 62, rfl⟩
abbrev main_cst_2 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_3 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x512x256_S512x256 : S1x512x256.ShapeCasts S512x256
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  bcast_S512_S768x512_1 : S512.BroadcastsInDim S768x512 (![1] : Fin 1 → Fin S768x512.rank)
  bcast_S_S768x512 : S_.BroadcastsInDim S768x512 (![] : Fin 0 → Fin S768x512.rank)
  transposes_S768x512_S512x768_1_0 : S768x512.Transposes [1, 0] S512x768
  bcast_S768_S1x768_1 : S768.BroadcastsInDim S1x768 (![1] : Fin 1 → Fin S1x768.rank)
  bcast_S1x768_S512x768_0_1 : S1x768.BroadcastsInDim S512x768 (![0, 1] : Fin 2 → Fin S512x768.rank)
  transposes_S768x256_S256x768_1_0 : S768x256.Transposes [1, 0] S256x768
  slices_S512x768_S512x256_0_0 : S512x768.Slices ![0, 0] S512x256
  slices_S512x768_S512x256_0_256 : S512x768.Slices ![0, 256] S512x256
  slices_S512x768_S512x256_0_512 : S512x768.Slices ![0, 512] S512x256
  bcast_S_S512x256 : S_.BroadcastsInDim S512x256 (![] : Fin 0 → Fin S512x256.rank)
  shapeCasts_S100000_S1x100000 : S100000.ShapeCasts S1x100000
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S3072x256_S3072x256_0_0 : ∀ a, (![0, 0] : Fin 2 → Nat) a + S3072x256.size a ≤ S3072x256.size a
  h_S3072x256 : 0 < S3072x256.numel
  transposes_S3072x256_p1_0_S256x3072 : S3072x256.Transposes [1, 0] S256x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  bcast_S512x256_S1x512x256_1_2 : S512x256.BroadcastsInDim S1x512x256 (![1, 2] : Fin 2 → Fin S1x512x256.rank)
  gather_S768x100000_S512x1_S768x512_0_1_n_n_1_1_7681_wf : GatherDims.WF S768x100000 S512x1 S768x512 [0] [1] [] [1] [] 1 ![768, 1]
  dot_S512x256_S256x768_S512x768_1_0_0_1_n_n_wf : DotDims.WF S512x256 S256x768 S512x768 [1] [0] [0] [1] [] []
  dot_S512x256_S256x3072_S512x3072_1_0_0_1_n_n_wf : DotDims.WF S512x256 S256x3072 S512x3072 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3072x256.size a < S100000x256.size a
  hwx0_1 : ∀ i : grid0.Coords, EltTy.bits .f32 = 32 ∨ (Rect.unit (s := S100000x256) (fun a => cc0_transform_1 i a * S3072x256.size a) (fun a => (Pipeline.Clip.of (cc0_transform_1 i a) (S3072x256.size a) (S100000x256.size a)).extent (S3072x256.size a)) fun a => Pipeline.Clip.inb (Pipeline.Clip.ok_of (hstart0_1 i a))).WholeWords (EltTy.packing .f32)
  hwxs0_1 : ∀ i : grid0.Coords, EltTy.bits .f32 = 32 ∨ (Rect.unit (s := S3072x256) (fun _ => 0) (fun a => (Pipeline.Clip.of (cc0_transform_1 i a) (S3072x256.size a) (S100000x256.size a)).extent (S3072x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x3072.size a < S1x100000.size a
  hwx0_2 : ∀ i : grid0.Coords, EltTy.bits .f32 = 32 ∨ (Rect.unit (s := S1x100000) (fun a => cc0_transform_2 i a * S1x3072.size a) (fun a => (Pipeline.Clip.of (cc0_transform_2 i a) (S1x3072.size a) (S1x100000.size a)).extent (S1x3072.size a)) fun a => Pipeline.Clip.inb (Pipeline.Clip.ok_of (hstart0_2 i a))).WholeWords (EltTy.packing .f32)
  hwxs0_2 : ∀ i : grid0.Coords, EltTy.bits .f32 = 32 ∨ (Rect.unit (s := S1x3072) (fun _ => 0) (fun a => (Pipeline.Clip.of (cc0_transform_2 i a) (S1x3072.size a) (S1x100000.size a)).extent (S1x3072.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x3072.size a < S512x100000.size a
  hwx0_3 : ∀ i : grid0.Coords, EltTy.bits .f32 = 32 ∨ (Rect.unit (s := S512x100000) (fun a => cc0_transform_3 i a * S512x3072.size a) (fun a => (Pipeline.Clip.of (cc0_transform_3 i a) (S512x3072.size a) (S512x100000.size a)).extent (S512x3072.size a)) fun a => Pipeline.Clip.inb (Pipeline.Clip.ok_of (hstart0_3 i a))).WholeWords (EltTy.packing .f32)
  hwxs0_3 : ∀ i : grid0.Coords, EltTy.bits .f32 = 32 ∨ (Rect.unit (s := S512x3072) (fun _ => 0) (fun a => (Pipeline.Clip.of (cc0_transform_3 i a) (S512x3072.size a) (S512x100000.size a)).extent (S512x3072.size a)) fun a => (Nat.zero_add _).trans_le (Pipeline.Clip.extent_le (Pipeline.Clip.ok_of (hstart0_3 i a)))).WholeWords (EltTy.packing .f32)

variable [Facts₀]

def gather_S768x100000_S512x1_S768x512_0_1_n_n_1_1_7681 : GatherDims S768x100000 S512x1 S768x512 where
  offsetDims := [0]
  collapsedSliceDims := [1]
  operandBatchingDims := []
  startIndicesBatchingDims := []
  startIndexMap := [1]
  indexVectorDim := 1
  sliceSizes := ![768, 1]
  wf := gather_S768x100000_S512x1_S768x512_0_1_n_n_1_1_7681_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x256_S256x3072_S512x3072_1_0_0_1_n_n : DotDims S512x256 S256x3072 S512x3072 where
  lhsContracting := [1]
  rhsContracting := [0]
  lhsNonContracting := [0]
  rhsNonContracting := [1]
  lhsBatch := []
  rhsBatch := []
  wf := dot_S512x256_S256x3072_S512x3072_1_0_0_1_n_n_wf

abbrev win0_0 : Pipeline.Window sig grid0 :=
  Pipeline.Window.ofSpec (Memref.whole main_v38) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg7) S3072x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v39) S1x3072.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v40) S512x3072.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512 : Shape := ⟨1, ![512]⟩
abbrev S1x512x256 : Shape := ⟨3, ![1, 512, 256]⟩
abbrev S768x100000 : Shape := ⟨2, ![768, 100000]⟩
abbrev S768x256 : Shape := ⟨2, ![768, 256]⟩
abbrev S768 : Shape := ⟨1, ![768]⟩
abbrev S100000x256 : Shape := ⟨2, ![100000, 256]⟩
abbrev S100000 : Shape := ⟨1, ![100000]⟩
abbrev S512x256 : Shape := ⟨2, ![512, 256]⟩
abbrev S_ : Shape := ⟨0, ![]⟩
abbrev S512x1 : Shape := ⟨2, ![512, 1]⟩
abbrev S1 : Shape := ⟨1, ![1]⟩
abbrev S1x1 : Shape := ⟨2, ![1, 1]⟩
abbrev S768x512 : Shape := ⟨2, ![768, 512]⟩
abbrev S512x768 : Shape := ⟨2, ![512, 768]⟩
abbrev S1x768 : Shape := ⟨2, ![1, 768]⟩
abbrev S256x768 : Shape := ⟨2, ![256, 768]⟩
abbrev S256x100000 : Shape := ⟨2, ![256, 100000]⟩
abbrev S512x100000 : Shape := ⟨2, ![512, 100000]⟩
abbrev S1x100000 : Shape := ⟨2, ![1, 100000]⟩

abbrev nBuf : Space → Nat
  | .hbm => 82
  | .vmem => 0
  | .smem => 0
  | _ => 0

abbrev bufTy : (tb : Table) → Fin (tcTables nBuf tb) → BufTy
  | .hbm, ⟨0, _⟩ => ⟨S512, .i32⟩
  | .hbm, ⟨1, _⟩ => ⟨S512, .i32⟩
  | .hbm, ⟨2, _⟩ => ⟨S1x512x256, .f32⟩
  | .hbm, ⟨3, _⟩ => ⟨S768x100000, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S100000x256, .f32⟩
  | .hbm, ⟨8, _⟩ => ⟨S100000, .f32⟩
  | .hbm, ⟨9, _⟩ => ⟨S512x256, .f32⟩
  | .hbm, ⟨10, _⟩ => ⟨S_, .i32⟩
  | .hbm, ⟨11, _⟩ => ⟨S512, .i32⟩
  | .hbm, ⟨12, _⟩ => ⟨S512, .i1⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S512x1, .i32⟩
  | .hbm, ⟨18, _⟩ => ⟨S1, .i32⟩
  | .hbm, ⟨19, _⟩ => ⟨S_, .i32⟩
  | .hbm, ⟨20, _⟩ => ⟨S512x1, .i32⟩
  | .hbm, ⟨21, _⟩ => ⟨S512x1, .i1⟩
  | .hbm, ⟨22, _⟩ => ⟨S1x1, .i32⟩
  | .hbm, ⟨23, _⟩ => ⟨S512x1, .i32⟩
  | .hbm, ⟨24, _⟩ => ⟨S512x1, .i1⟩
  | .hbm, ⟨25, _⟩ => ⟨S512x1, .i1⟩
  | .hbm, ⟨26, _⟩ => ⟨S_, .i1⟩
  | .hbm, ⟨27, _⟩ => ⟨S512, .i1⟩
  | .hbm, ⟨28, _⟩ => ⟨S768x512, .f32⟩
  | .hbm, ⟨29, _⟩ => ⟨S768x512, .i1⟩
  | .hbm, ⟨30, _⟩ => ⟨S_, .f32⟩
  | .hbm, ⟨31, _⟩ => ⟨S768x512, .f32⟩
  | .hbm, ⟨32, _⟩ => ⟨S768x512, .f32⟩
  | .hbm, ⟨33, _⟩ => ⟨S512x768, .f32⟩
  | .hbm, ⟨34, _⟩ => ⟨S1x768, .f32⟩
  | .hbm, ⟨35, _⟩ => ⟨S512x768, .f32⟩
  | .hbm, ⟨36, _⟩ => ⟨S512x768, .f32⟩
  | .hbm, ⟨37, _⟩ => ⟨S256x768, .f32⟩
  | .hbm, ⟨38, _⟩ => ⟨S512x768, .f32⟩
  | .hbm, ⟨39, _⟩ => ⟨S1x768, .f32⟩
  | .hbm, ⟨40, _⟩ => ⟨S512x768, .f32⟩
  | .hbm, ⟨41, _⟩ => ⟨S512x768, .f32⟩
  | .hbm, ⟨42, _⟩ => ⟨S512x256, .f32⟩
  | .hbm, ⟨43, _⟩ => ⟨S512x256, .f32⟩
  | .hbm, ⟨44, _⟩ => ⟨S512x256, .f32⟩
  | .hbm, ⟨45, _⟩ => ⟨S512x256, .f32⟩
  | .hbm, ⟨46, _⟩ => ⟨S512x256, .f32⟩
  | .hbm, ⟨47, _⟩ => ⟨S512x256, .f32⟩
  | .hbm, ⟨48, _⟩ => ⟨S512x256, .f32⟩
  | .hbm, ⟨49, _⟩ => ⟨S512x256, .f32⟩
  | .hbm, ⟨50, _⟩ => ⟨S512x256, .f32⟩
  | .hbm, ⟨51, _⟩ => ⟨S_, .f32⟩
  | .hbm, ⟨52, _⟩ => ⟨S512x256, .f32⟩
  | .hbm, ⟨53, _⟩ => ⟨S512x256, .f32⟩
  | .hbm, ⟨54, _⟩ => ⟨S_, .f32⟩
  | .hbm, ⟨55, _⟩ => ⟨S512x256, .f32⟩
  | .hbm, ⟨56, _⟩ => ⟨S512x256, .f32⟩
  | .hbm, ⟨57, _⟩ => ⟨S512x256, .f32⟩
  | .hbm, ⟨58, _⟩ => ⟨S512x256, .f32⟩
  | .hbm, ⟨59, _⟩ => ⟨S512x256, .f32⟩
  | .hbm, ⟨60, _⟩ => ⟨S_, .f32⟩
  | .hbm, ⟨61, _⟩ => ⟨S512x256, .f32⟩
  | .hbm, ⟨62, _⟩ => ⟨S512x256, .f32⟩
  | .hbm, ⟨63, _⟩ => ⟨S_, .f32⟩
  | .hbm, ⟨64, _⟩ => ⟨S512x256, .f32⟩
  | .hbm, ⟨65, _⟩ => ⟨S512x256, .f32⟩
  | .hbm, ⟨66, _⟩ => ⟨S512x256, .f32⟩
  | .hbm, ⟨67, _⟩ => ⟨S512x256, .f32⟩
  | .hbm, ⟨68, _⟩ => ⟨S512x256, .f32⟩
  | .hbm, ⟨69, _⟩ => ⟨S_, .f32⟩
  | .hbm, ⟨70, _⟩ => ⟨S512x256, .f32⟩
  | .hbm, ⟨71, _⟩ => ⟨S512x256, .f32⟩
  | .hbm, ⟨72, _⟩ => ⟨S512x256, .f32⟩
  | .hbm, ⟨73, _⟩ => ⟨S512x256, .f32⟩
  | .hbm, ⟨74, _⟩ => ⟨S512x256, .f32⟩
  | .hbm, ⟨75, _⟩ => ⟨S256x100000, .f32⟩
  | .hbm, ⟨76, _⟩ => ⟨S512x100000, .f32⟩
  | .hbm, ⟨77, _⟩ => ⟨S1x100000, .f32⟩
  | .hbm, ⟨78, _⟩ => ⟨S512x100000, .f32⟩
  | .hbm, ⟨79, _⟩ => ⟨S512x100000, .f32⟩
  | .hbm, ⟨80, _⟩ => ⟨S512x100000, .f32⟩
  | .hbm, ⟨81, _⟩ => ⟨S1x512x256, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst : Ref sig .tc := ⟨.hbm, 51, rfl⟩
abbrev main_v20 : Ref sig .tc := ⟨.hbm, 52, rfl⟩
abbrev main_v21 : Ref sig .tc := ⟨.hbm, 53, rfl⟩
abbrev main_cst_0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_1 : Ref sig .tc := ⟨.hbm, 60, rfl⟩
abbrev main_v27 : Ref sig .tc := ⟨.hbm, 61, rfl⟩
abbrev main_v28 : Ref sig .tc := ⟨.hbm, 62, rfl⟩
abbrev main_cst_2 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_3 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩

abbrev nD : Nat := 1
abbrev τ : Topo := Topo.v7x

variable {F : FTy → Type} [FloatOps F]

class Facts₀ : Prop where
  shapeCasts_S1x512x256_S512x256 : S1x512x256.ShapeCasts S512x256
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  bcast_S512_S768x512_1 : S512.BroadcastsInDim S768x512 (![1] : Fin 1 → Fin S768x512.rank)
  bcast_S_S768x512 : S_.BroadcastsInDim S768x512 (![] : Fin 0 → Fin S768x512.rank)
  transposes_S768x512_S512x768_1_0 : S768x512.Transposes [1, 0] S512x768
  bcast_S768_S1x768_1 : S768.BroadcastsInDim S1x768 (![1] : Fin 1 → Fin S1x768.rank)
  bcast_S1x768_S512x768_0_1 : S1x768.BroadcastsInDim S512x768 (![0, 1] : Fin 2 → Fin S512x768.rank)
  transposes_S768x256_S256x768_1_0 : S768x256.Transposes [1, 0] S256x768
  slices_S512x768_S512x256_0_0 : S512x768.Slices ![0, 0] S512x256
  slices_S512x768_S512x256_0_256 : S512x768.Slices ![0, 256] S512x256
  slices_S512x768_S512x256_0_512 : S512x768.Slices ![0, 512] S512x256
  bcast_S_S512x256 : S_.BroadcastsInDim S512x256 (![] : Fin 0 → Fin S512x256.rank)
  transposes_S100000x256_S256x100000_1_0 : S100000x256.Transposes [1, 0] S256x100000
  bcast_S100000_S1x100000_1 : S100000.BroadcastsInDim S1x100000 (![1] : Fin 1 → Fin S1x100000.rank)
  bcast_S1x100000_S512x100000_0_1 : S1x100000.BroadcastsInDim S512x100000 (![0, 1] : Fin 2 → Fin S512x100000.rank)
  bcast_S512x256_S1x512x256_1_2 : S512x256.BroadcastsInDim S1x512x256 (![1, 2] : Fin 2 → Fin S1x512x256.rank)
  gather_S768x100000_S512x1_S768x512_0_1_n_n_1_1_7681_wf : GatherDims.WF S768x100000 S512x1 S768x512 [0] [1] [] [1] [] 1 ![768, 1]
  dot_S512x256_S256x768_S512x768_1_0_0_1_n_n_wf : DotDims.WF S512x256 S256x768 S512x768 [1] [0] [0] [1] [] []
  dot_S512x256_S256x100000_S512x100000_1_0_0_1_n_n_wf : DotDims.WF S512x256 S256x100000 S512x100000 [1] [0] [0] [1] [] []

variable [Facts₀]

def gather_S768x100000_S512x1_S768x512_0_1_n_n_1_1_7681 : GatherDims S768x100000 S512x1 S768x512 where
  offsetDims := [0]
  collapsedSliceDims := [1]
  operandBatchingDims := []
  startIndicesBatchingDims := []
  startIndexMap := [1]
  indexVectorDim := 1
  sliceSizes := ![768, 1]
  wf := gather_S768x100000_S512x1_S768x512_0_1_n_n_1_1_7681_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x256_S256x100000_S512x100000_1_0_0_1_n_n : DotDims S512x256 S256x100000 S512x100000 where
  lhsContracting := [1]
  rhsContracting := [0]
  lhsNonContracting := [0]
  rhsNonContracting := [1]
  lhsBatch := []
  rhsBatch := []
  wf := dot_S512x256_S256x100000_S512x100000_1_0_0_1_n_n_wf

class Facts : Prop extends Facts₀ where

variable [Facts]
-- ==== Proof.KernelFrame.Body.lean ====
/-
  The kernel body of the projection call, on any four whole staging buffers.

  The body reads the whole of three buffers — a 512 × 256 block of activations, a 3072 × 256 block of the weight
  table's rows, a 1 × 3072 block of the bias row —, rounds the first two to bf16, multiplies the first by the
  transpose of the second into a zero accumulator, adds the bias row to every row of the product, takes tanh, reads
  the whole of the fourth buffer (a value nothing uses) and stores the 512 × 3072 result over the whole of the
  fourth buffer.

  What is proved here: whatever the three input buffers hold, the body runs without fault and leaves them holding
  exactly that; the fourth buffer, handed over at any contents, is handed back at SOME contents. Those contents are
  a function of every word of the three inputs — the product of two matrices at the bit-exact instance is defined
  on the whole operands —, the words of the weight and bias buffers past the end of their arrays included, which
  nothing names; so the triple does not say what they are, and nothing downstream of it reads them.
-/
import proofs.«119013_j23081154248766_2_alg».proof.Proof.Gen.Kernel.Frame
import proofs.«119013_j23081154248766_2_alg».proof.Proof.Gen.Kernel.Skeleton

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body's triple: the three input buffers at any contents `x0`, `x1`, `x2` and the output buffer at any
    contents; after the run the inputs are as they were and the output buffer holds some contents. -/
theorem body_run (c : Dev nD) (i : grid0.Coords)
    (arg1 : Memref sig .tc .vmem S512x256 .f32) (harg1 : arg1.IsWhole)
    (arg2 : Memref sig .tc .vmem S3072x256 .f32) (harg2 : arg2.IsWhole)
    (arg3 : Memref sig .tc .vmem S1x3072 .f32) (harg3 : arg3.IsWhole)
    (arg4 : Memref sig .tc .vmem S512x3072 .f32) (harg4 : arg4.IsWhole)
    (x0 : Vec F S512x256 .f32) (x1 : Vec F S3072x256 .f32) (x2 : Vec F S1x3072 .f32) :
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2 ∗ (∃ d, owns (c : Thread nD τ) arg4 fullShare d)) -∗ K ⟨⟩))
          ⊢ wp frame (wpE (defs₀ (F := F)) Variants.none c none) E
              (cc0__proj_kernel i arg1 harg1 arg2 harg2 arg3 harg3 arg4 harg4) K := by
  intro E K
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  obtain rfl := harg1.eq_unread hf0
  obtain rfl := harg2.eq_unread hf1
  obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _, _; isplitr; swap; · iexact H3
  ipureintro; rfl

end Cert.Kernel.HandFrame

end
-- ==== Proof.KernelFrame.lean ====
/-
  The frame of the word-level program: every execution of @main terminates without fault and leaves the nine
  argument arrays as they were launched.

  @main is a stretch of host operations, one pipelined call of the projection kernel over a grid of 33 points, and
  one more host operation. At point t the pipeline hands the kernel body four staging buffers:

    * the 512 × 256 activations, the whole array at every point (fetched once, at the first point);
    * rows 3072·t ‥ 3072·t + 3071 of the 100000 × 256 weight table (the eighth argument);
    * columns 3072·t ‥ 3072·t + 3071 of the 1 × 100000 bias row;
    * the block of the 512 × 100000 result on the same columns, written back after the body at every point.

  100000 = 32 · 3072 + 1696: at the last point the blocks overhang their arrays. The transfer is cut at the array's
  end: the fetch fills rows (columns) 0 ‥ 1695 of the buffer and the words past them are words nothing names; the
  write-back writes columns 0 ‥ 1695 of the result's buffer and nothing past the array.

  The proof data names what the three input buffers hold on the part inside the array — the array's block — and
  leaves the rest of each buffer to the fetch. It does NOT name what the body leaves in the result's buffer: the
  body's product is a function of the whole of both operands, the unnamed words of the weight and bias buffers
  among them, so no expression over the arrays equals it. The claim reads nothing of the result, so the result's
  window is forgotten: its buffer is handed to the body at any contents and taken back at any contents, and its
  array ends at its entry contents overwritten, block by block, by words nothing constrains.

  The frame then reads the run's post: the weight table is an input of the pipeline, never written; the other
  eight arguments are buffers no window stages, which neither the host operations before the call nor the one after
  it (it writes its own result only) write.
-/
import proofs.«119013_j23081154248766_2_alg».proof.Defs
import proofs.«119013_j23081154248766_2_alg».proof.Proof.KernelFrame.Body
import proofs.«119013_j23081154248766_2_alg».proof.Proof.Gen.Pre_finite_inputs

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The window the claim reads nothing of: the result's (window 3). -/
def forgets0 : Fin 4 → Bool := fun w => w.val == 3

/-- The proof data of the pipeline on core `c`: the arrays as the call finds them; after the body at point `t` the
    activations' buffer at the whole array, the weight rows' and the bias columns' buffers at their blocks on the
    part inside the array (past it a word the proof picks and nothing reads: the zero word), the result's buffer
    not named; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, h⟩ => Pipeline.Dat.unnamed (cfg := cfg0) ⟨3, h⟩ t
  Φ _ := Pipeline.ΦA spec0 c
  q _ := fullShare
  owed _ := 0

/-- The proof data's arrays are the contents at the call's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => Scalar.ofBits .f32 0#32) (iblk m c 1 t) := by
  dsimp only [dats]
theorem after0_2 (c : Dev nD) (t : Fin cfg0.N) :
    (dats m 0 c).after 2 t = win0_2.fill (grid0.coords t) (fun _ => Scalar.ofBits .f32 0#32) (iblk m c 2 t) := by
  dsimp only [dats]

/-- On the part inside the array those are the blocks. -/
theorem cut_after0_1 (c : Dev nD) (t : Fin cfg0.N) :
    win0_1.cut (grid0.coords t) ((dats m 0 c).after 1 t) = iblk m c 1 t := by
  rw [after0_1]; exact win0_1.cut_fill _ _ _
theorem cut_after0_2 (c : Dev nD) (t : Fin cfg0.N) :
    win0_2.cut (grid0.coords t) ((dats m 0 c).after 2 t) = iblk m c 2 t := by
  rw [after0_2]; exact win0_2.cut_fill _ _ _

/-- What the body finds: the activations' buffer at the whole array at every point, fetched there or not; -/
theorem before0_0 (c : Dev nD) (t : Fin cfg0.N) (d) : (dats m 0 c).before 0 t d = iblk m c 0 t :=
  before0_0_of m (dats m 0 c) (A_eq m c 0) (after0_0 m c) t d
/-- the weight rows' buffer just fetched: the block on the part inside the array, `d` past it; -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq m c 1]; try rfl
/-- the bias columns' likewise. -/
theorem before0_2 (c : Dev nD) (t : Fin cfg0.N) (d) :
    (dats m 0 c).before 2 t d = win0_2.fill (grid0.coords t) d (iblk m c 2 t) := by
  unfold Dat.before; rw [if_pos (fetch0_2 t)]
  unfold Dat.fetched Dat.blockOf iblk; rw [A_eq m c 2]; try rfl

/-! ## The body obligation, at a generic point -/

/-- What the body is called with at point `t`: the invariant, what is owed, the three inputs' current buffers at
    what they then hold and the result's at any contents; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- and what it returns: the activations' buffer at the array, the weight rows' and the bias columns' stated on
    the part inside the array, the result's at any contents. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t))))
    ∗ (∃ X, owns (c : Thread nD τ) (st0_3 t) fullShare X))

/-- The body at any point: it leaves its three inputs as it found them, which is what the obligation asks of them
    (the invariant passes through unread, the core owes nothing throughout). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, cut_after0_1, cut_after0_2]
  iintro ⟨HΦ, Ho, ⟨%d0, H0⟩, ⟨%d1, H1⟩, ⟨%d2, H2⟩, H3⟩
  iapply ((body_run c (grid0.coords t) _ _ _ _ _ _ _ _ (iblk m c 0 t)
    (win0_1.fill (grid0.coords t) d1 (iblk m c 1 t)) (win0_2.fill (grid0.coords t) d2 (iblk m c 2 t))) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexact H3

/-- The library's body obligation at every point, the result's window forgotten. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

/-- The host operation after the call writes its own result only. -/
theorem sfx_T : ∀ ops ∈ ([hostOps1] : List (List (HloOp τ sig (Elt F)))), ∀ op ∈ ops, ∀ b : Ref sig .tc,
    Proc.devRef .tc b ∈ op.writes → b ∈ ({main_v41} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  exact Finset.mem_singleton.mpr (Proc.devRef_injective _ hb)

set_option backward.isDefEq.respectTransparency.types false in
/-- At the compiled mesh, for any values, from any memory with zero counters: every weakly fair execution of @main
    on the TensorCores terminates, and every final state has every array of the pipeline at contents it may hold
    after every write-back (an input: its entry contents) and every other unscoped buffer but the last host
    operation's result at its contents at the call's entry. -/
theorem run_main : θ_run defs (onTc (τ := τ) (main (F := F))) (s₀ m ρ)
    (Pipeline.RDat.FramePostR (cfgs 0) (fun c => (dats m 0 c).toRForget forgets0) {main_v41} (V m)) :=
  Pipeline.RDat.θ_run_frame_around_T cfgs (0 : Fin 1) launch0 defs₀ Variants.none
    (fun c => (dats m 0 c).toRForget forgets0) {main_v41} m ρ main
    (hbody := fun c => (body_obligation m c).toRForget)
    (hshare := fun c => ((dats m 0 c).toRForget forgets0).share_full fun _ => rfl)
    (howed := fun _ _ => rfl) (V₀ := V0 m) (opss := [hostOps1])
    (hsub := sfx_sub) (hfresh := sfx_fresh) (hkeep := sfx_keeps) (hT := sfx_T)
    (hmain := hmain m Variants.none) (hA := A_eq m) (hΦ := fun _ _ => rfl)

/-- info: 'Cert.Kernel.HandFrame.run_main' depends on axioms: [propext, Classical.choice, Quot.sound] -/
#guard_msgs in #print axioms run_main

/-- A buffer no window stages, other than the last host operation's result, is among those the run's post keeps. -/
theorem mem_kept (b : Ref sig .tc) (hs : b.isScoped = false) (ha : ∀ w, (spec0 w).arr.view.ref ≠ b) (hb : b ≠ main_v41) :
    b ∈ Pipeline.restRefs sig (cfgs 0).spec \ ({main_v41} : Finset (Ref sig .tc)) :=
  Finset.mem_sdiff.mpr ⟨Pipeline.mem_restRefs_of b hs ha, fun h => hb (Finset.mem_singleton.mp h)⟩

/-- The frame at any `F`: the weight table is the pipeline's input (window 1), the other eight arguments are
    buffers no window stages and no host operation writes. -/
theorem frame_F : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (mem_kept main_arg0 (by decide) (by decide) (by decide))).trans (V_main_arg0 m c),
     ((h c).2 main_arg1 (mem_kept main_arg1 (by decide) (by decide) (by decide))).trans (V_main_arg1 m c),
     ((h c).2 main_arg2 (mem_kept main_arg2 (by decide) (by decide) (by decide))).trans (V_main_arg2 m c),
     ((h c).2 main_arg3 (mem_kept main_arg3 (by decide) (by decide) (by decide))).trans (V_main_arg3 m c),
     ((h c).2 main_arg4 (mem_kept main_arg4 (by decide) (by decide) (by decide))).trans (V_main_arg4 m c),
     ((h c).2 main_arg5 (mem_kept main_arg5 (by decide) (by decide) (by decide))).trans (V_main_arg5 m c),
     ((h c).2 main_arg6 (mem_kept main_arg6 (by decide) (by decide) (by decide))).trans (V_main_arg6 m c),
     (Eq.mp (congrFun (((dats m 0 c).toRForget forgets0).ArrAt_in 1 rfl _) _) ((h c).1 1)).trans
       ((A_eq m c 1).trans (V_main_arg7 m c)),
     ((h c).2 main_arg8 (mem_kept main_arg8 (by decide) (by decide) (by decide))).trans (V_main_arg8 m c)⟩)
    (run_main m ρ)

/-- THE FRAME of the word-level program, at the bit-exact instance. -/
theorem frame : Cert.frame_Kernel := fun m ρ _ => frame_F (F := Bits) m ρ

/-- info: 'Cert.Kernel.HandFrame.frame' depends on axioms: [propext, Classical.choice, Quot.sound] -/
#guard_msgs in #print axioms frame

end Cert.Kernel.HandFrame

end
-- ==== Proof.Ideal.Body.lean ====
/-
  The projection kernel's body, run once on whole staging buffers.

  One call loads the hidden-state block h (512 × 256), a block W of 3072 rows of the output weights
  (3072 × 256) and the matching block b of 3072 biases (1 × 3072), and stores the 512 × 3072 block
  tanh (h · Wᵀ + b) into the output's staging buffer, which it overwrites whole.  Whatever the three
  input buffers hold — rows of W past the array's end included — the output buffer ends at that one
  function of their contents, and the inputs are left as they were.
-/
import proofs.«119013_j23081154248766_2_alg».proof.Proof.Gen.KernelIdeal.Frame
import proofs.«119013_j23081154248766_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole of each staging buffer, as the rectangle the body's loads and its store go through. -/
abbrev rH : Rect S512x256 := Rect.unit (s := S512x256) ![0, 0] S512x256.size Facts₀.inb_S512x256_S512x256_0_0
abbrev rW : Rect S3072x256 := Rect.unit (s := S3072x256) ![0, 0] S3072x256.size Facts₀.inb_S3072x256_S3072x256_0_0
abbrev rB : Rect S1x3072 := Rect.unit (s := S1x3072) ![0, 0] S1x3072.size Facts₀.inb_S1x3072_S1x3072_0_0
abbrev rO : Rect S512x3072 := Rect.unit (s := S512x3072) ![0, 0] S512x3072.size Facts₀.inb_S512x3072_S512x3072_0_0

/-- What the output's staging buffer holds after the body, from the contents of the three input buffers:
    the one whole-buffer store of tanh (h · Wᵀ + b). -/
def projBlock (x0 : Vec F S512x256 .f32) (x1 : Vec F S3072x256 .f32) (x2 : Vec F S1x3072 .f32) : Vec F S512x3072 .f32 :=
  View.canon [⟨rO, k0_pay1 (View.ld x0 rH) (View.ld x1 rW) (View.ld x2 rB)⟩]

/-- The one store covers the buffer. -/
theorem cover_rO (p0 : Vec F S512x3072 .f32) (y : S512x3072.Idx) :
    ∃ pc ∈ ([⟨rO, p0⟩] : List (View.Piece (Elt F) S512x3072 .f32)), y ∈ pc.1.set :=
  View.cover_of_tiled [⟨rO, p0⟩] S512x3072.size (by rfl) y

set_option maxHeartbeats 1000000 in
/-- The body on whole staging memrefs: the inputs' at contents x0, x1, x2 and the output's at anything runs to
    the continuation holding the inputs' as they were and the output's at projBlock of them. -/
theorem sound_kernel (c : Dev nD) (E : Set ℕ) (i : grid0.Coords)
    (arg1 : Memref sig .tc .vmem S512x256 .f32) (harg1 : arg1.IsWhole) (arg2 : Memref sig .tc .vmem S3072x256 .f32) (harg2 : arg2.IsWhole)
    (arg3 : Memref sig .tc .vmem S1x3072 .f32) (harg3 : arg3.IsWhole) (arg4 : Memref sig .tc .vmem S512x3072 .f32) (harg4 : arg4.IsWhole)
    (x0 : Vec F S512x256 .f32) (x1 : Vec F S3072x256 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projBlock x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_rO _)

end Cert.KernelIdeal.Hand

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.Ideal.Payload.lean ====
/-
  One entry of the block the body stores, on the extended reals.

  With h the 512 × 256 hidden-state block, W a 3072 × 256 block of output weights and b the 1 × 3072 block of biases,
  entry (p, q) of the stored block is  tanh (∑ k < 256, h[p, k] · W[q, k] + b[0, q]):
  rounding to the narrower float format is the identity on the extended reals, the transposed weight block read at
  (k, q) is W[q, k], the matrix product into the zero accumulator is the plain sum over the contracted axis, and the
  bias row is spread over the 512 rows.  In particular entry (p, q) reads of W only its row q and of b only its entry q.
-/
import proofs.«119013_j23081154248766_2_alg».proof.Proof.Gen.KernelIdeal.Skeleton
import proofs.«119013_j23081154248766_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- Entry (p, q) of the stored block: tanh (∑ k, h[p, k] · W[q, k] + b[0, q]). -/
theorem pay_apply (x0 : Vec Ideal S512x256 .f32) (x1 : Vec Ideal S3072x256 .f32) (x2 : Vec Ideal S1x3072 .f32)
    (p : Fin 512) (q : Fin 3072) :
    k0_pay1 (F := Ideal) x0 x1 x2 (ix2 p q)
      = Ideal.tanh ((∑ k : Fin 256, x0 (ix2 p k) * x1 (ix2 q k)) + x2 (ix2 (0 : Fin 1) q)) := by
  unfold k0_pay1
  refine congrArg Ideal.tanh ?_
  refine congrArg₂ (· + ·) ?_ ?_
  · refine (matmul_plain_zero_apply _ rfl none _ _ p q).trans ?_
    refine Finset.sum_congr rfl fun k _ => ?_
    refine congrArg₂ (· * ·) ?_ ?_
    · exact congrFun (shapeCast_self x0 _) _
    · exact transpose_ix2_apply _ _ k q
  · exact (broadcastTo_1b_ab_apply _ _ p q).trans (congrFun (shapeCast_self x2 _) _)

end Cert.KernelIdeal.Hand

end
-- ==== Proof.Ideal.Data.lean ====
/-
  The projection's proof data on the extended reals.

  The region computes, from the hidden state h (512 × 256), the output weights W (100000 × 256) and the bias row
  b (1 × 100000), the array  L[r, j] = tanh (∑ k < 256, h[r, k] · W[j, k] + b[0, j])  in 33 column blocks of 3072; the last
  block holds only 1696 columns of the array (100000 = 32 · 3072 + 1696), and the rows of the weight buffer and the
  entries of the bias buffer past the array's end hold values nothing names.  Entry (r, q) of a stored block reads row q
  of the weight buffer and entry q of the bias buffer only, so the part of the stored block that is written back — its
  first 1696 columns at the last point, all of it elsewhere — is the matching block of L whatever those values are.
-/
import proofs.«119013_j23081154248766_2_alg».proof.Proof.Ideal.Body
import proofs.«119013_j23081154248766_2_alg».proof.Proof.Ideal.Payload
import Idealize.ShloMosaic.Lib.Pipeline.Value
import Idealize.ShloMosaic.Lib.Pipeline.Frame

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- tanh (h · Wᵀ + b) over the whole arrays, entry by entry. -/
def proj (h : S512x256.Idx → EReal) (w : S100000x256.Idx → EReal) (b : S1x100000.Idx → EReal) : S512x100000.Idx → EReal :=
  fun i => Ideal.tanh ((∑ k : Fin 256, h (ix2 (i 0) k) * w (ix2 (i 1) k)) + b (ix2 (0 : Fin 1) (i 1)))

/-- The same of the arrays the region finds on core c: the hidden state the host lines computed, the weights, the bias row. -/
def logitsAt (c : Dev nD) : S512x100000.Idx → EReal :=
  proj (V m c main_v38 : S512x256.Idx → EReal) (V m c main_arg7 : S100000x256.Idx → EReal) (V m c main_v39 : S1x100000.Idx → EReal)

/-- The proof data: the arrays as the region finds them; after the body the hidden-state buffer at its block, the weight
    and bias buffers at their blocks (filled out past the array's end with a value nothing reads), and the output
    buffer at the block of the logits (filled out likewise). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => win0_3.fill (grid0.coords t) (fun _ => (0 : EReal)) ((win0_3.blk t).view.read (Elt Ideal) (logitsAt m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = win0_1.fill (grid0.coords t) (fun _ => (0 : EReal)) (iblk m c 1 t) := by dsimp only [dats]
theorem after_2 (c : Dev nD) (t : Fin cfg0.N) :
    (dats m 0 c).after 2 t = win0_2.fill (grid0.coords t) (fun _ => (0 : EReal)) (iblk m c 2 t) := by dsimp only [dats]
theorem after_3 (c : Dev nD) (t : Fin cfg0.N) :
    (dats m 0 c).after 3 t = win0_3.fill (grid0.coords t) (fun _ => (0 : EReal)) ((win0_3.blk t).view.read (Elt Ideal) (logitsAt m c)) := by
  dsimp only [dats]

/-- What the body finds: the hidden-state buffer at its block; -/
theorem before_0 (c : Dev nD) (t : Fin cfg0.N) (d) : (dats m 0 c).before 0 t d = iblk m c 0 t :=
  before0_0_of m (dats m 0 c) (A_eq m c 0) (after_0 m c) t d
/-- the weight and bias buffers just fetched: their blocks on the part inside the array, anything elsewhere; -/
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
/-- the output buffer at anything (it was written back at the point before). -/
theorem before_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-- Where each window's block sits at point t, and how much of it lies inside its array. -/
theorem idx_facts : ∀ t : Fin cfg0.N,
    win0_0.index t 0 = 0 ∧ win0_0.index t 1 = 0
    ∧ win0_1.index t 0 = t.val ∧ win0_1.index t 1 = 0
    ∧ win0_2.index t 0 = 0 ∧ win0_2.index t 1 = t.val
    ∧ win0_3.index t 0 = 0 ∧ win0_3.index t 1 = t.val
    ∧ win0_1.xsize (grid0.coords t) 0 = win0_3.xsize (grid0.coords t) 1 ∧ win0_1.xsize (grid0.coords t) 1 = 256
    ∧ win0_2.xsize (grid0.coords t) 0 = 1 ∧ win0_2.xsize (grid0.coords t) 1 = win0_3.xsize (grid0.coords t) 1
    ∧ win0_3.xsize (grid0.coords t) 0 = 512
    ∧ (t.val < 32 → win0_3.xsize (grid0.coords t) 1 = 3072) ∧ (t.val = 32 → win0_3.xsize (grid0.coords t) 1 = 1696) :=
  (by decide +kernel : ∀ t : Fin grid0.N, _)

end Cert.KernelIdeal.Hand

end
-- ==== Proof.Ideal.Block.lean ====
/-
  The written-back part of a stored block is the matching block of the logits.

  At grid point t the output block covers columns 3072·t … of the logits, of which the first n lie inside the array
  (n = 3072, or 1696 at the last point).  Entry (r, q), q < n, of the stored block is
  tanh (∑ k, h[r, k] · Wbuf[q, k] + bbuf[0, q]); row q < n of the weight buffer is row 3072·t + q of W and entry q < n of the
  bias buffer is entry 3072·t + q of b, so that entry is L[r, 3072·t + q] whatever the buffers hold past n.
-/
import proofs.«119013_j23081154248766_2_alg».proof.Proof.Ideal.Data

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ)

theorem hz2 : (![0, 0] : Fin 2 → Nat) = fun _ => 0 := funext fun a => by fin_cases a <;> rfl

/-- The one whole-buffer store leaves its payload of the buffers' contents. -/
theorem projBlock_eq (x0 : Vec Ideal S512x256 .f32) (x1 : Vec Ideal S3072x256 .f32) (x2 : Vec Ideal S1x3072 .f32) :
    projBlock (F := Ideal) x0 x1 x2 = k0_pay1 (F := Ideal) x0 x1 x2 := by
  unfold projBlock
  rw [View.canon_unit_zero hz2]
  simp only [View.ld_unit_zero (S := S512x256) hz2, View.ld_unit_zero (S := S3072x256) hz2, View.ld_unit_zero (S := S1x3072) hz2]

/-- The hidden-state block is the whole hidden state. -/
theorem hblk_apply (c : Dev nD) (t : Fin cfg0.N) (y : (win0_0.xblock (grid0.coords t)).Idx) (k : S512x256.Idx)
    (hk0 : (k 0).val = (y 0).val) (hk1 : (k 1).val = (y 1).val) :
    iblk m c 0 t y = (V m c main_v38 : S512x256.Idx → EReal) k := by
  obtain ⟨i00, i01, -⟩ := idx_facts t
  unfold iblk
  rw [View.read_apply]
  show V m c main_v38 _ = V m c main_v38 _
  refine congrArg _ ?_
  funext a
  apply Fin.ext
  match a with
  | ⟨0, _⟩ => show win0_0.index t 0 * 512 + 1 * (y 0).val = (k 0).val; rw [i00, hk0]; omega
  | ⟨1, _⟩ => show win0_0.index t 1 * 256 + 1 * (y 1).val = (k 1).val; rw [i01, hk1]; omega

/-- The weight block at point t is rows 3072·t … of the weights. -/
theorem wblk_apply (c : Dev nD) (t : Fin cfg0.N) (y : (win0_1.xblock (grid0.coords t)).Idx) (k : S100000x256.Idx)
    (hk0 : (k 0).val = t.val * 3072 + (y 0).val) (hk1 : (k 1).val = (y 1).val) :
    iblk m c 1 t y = (V m c main_arg7 : S100000x256.Idx → EReal) k := by
  obtain ⟨-, -, i10, i11, -⟩ := idx_facts t
  unfold iblk
  rw [View.read_apply]
  show V m c main_arg7 _ = V m c main_arg7 _
  refine congrArg _ ?_
  funext a
  apply Fin.ext
  match a with
  | ⟨0, _⟩ => show win0_1.index t 0 * 3072 + 1 * (y 0).val = (k 0).val; rw [i10, hk0]; omega
  | ⟨1, _⟩ => show win0_1.index t 1 * 256 + 1 * (y 1).val = (k 1).val; rw [i11, hk1]; omega

/-- The bias block at point t is entries 3072·t … of the bias row. -/
theorem bblk_apply (c : Dev nD) (t : Fin cfg0.N) (y : (win0_2.xblock (grid0.coords t)).Idx) (k : S1x100000.Idx)
    (hk0 : (k 0).val = (y 0).val) (hk1 : (k 1).val = t.val * 3072 + (y 1).val) :
    iblk m c 2 t y = (V m c main_v39 : S1x100000.Idx → EReal) k := by
  obtain ⟨-, -, -, -, i20, i21, -⟩ := idx_facts t
  unfold iblk
  rw [View.read_apply]
  show V m c main_v39 _ = V m c main_v39 _
  refine congrArg _ ?_
  funext a
  apply Fin.ext
  match a with
  | ⟨0, _⟩ => show win0_2.index t 0 * 1 + 1 * (y 0).val = (k 0).val; rw [i20, hk0]; omega
  | ⟨1, _⟩ => show win0_2.index t 1 * 3072 + 1 * (y 1).val = (k 1).val; rw [i21, hk1]; omega

/-- A buffer's entry inside the part a transfer moves is the entry of that part. -/
theorem cut_at {G : Pipeline.Grid} {α : Type} (w : Window sig G) (i : G.Coords) (X : w.block.Idx → α) (b : w.block.Idx)
    (hb : ∀ a, (b a).val < w.xsize i a) : X b = w.cut i X (fun a => ⟨(b a).val, hb a⟩) :=
  congrArg X (funext fun a => Fin.ext rfl)

/-- The part written back of the block stored at point t — from a weight buffer and a bias buffer that hold their blocks
    on the parts inside the arrays and anything elsewhere — is the block of the logits at t. -/
theorem cut_projBlock (c : Dev nD) (t : Fin cfg0.N) (X1 : S3072x256.Idx → EReal) (X2 : S1x3072.Idx → EReal)
    (h1 : win0_1.cut (grid0.coords t) X1 = iblk m c 1 t) (h2 : win0_2.cut (grid0.coords t) X2 = iblk m c 2 t) :
    win0_3.cut (grid0.coords t) (projBlock (F := Ideal) (iblk m c 0 t) X1 X2)
      = (win0_3.blk t).view.read (Elt Ideal) (logitsAt m c) := by
  obtain ⟨-, -, -, -, -, -, i30, i31, x10, x11, x20, x21, x30, -, -⟩ := idx_facts t
  funext j
  have hj0 : (j 0).val < 512 := by
    have h : (j 0).val < win0_3.xsize (grid0.coords t) 0 := (j 0).isLt
    rw [x30] at h; exact h
  have hj1 : (j 1).val < win0_3.xsize (grid0.coords t) 1 := (j 1).isLt
  have hq : (j 1).val < 3072 := Nat.lt_of_lt_of_le hj1 (win0_3.xsize_le (grid0.coords t) 1)
  have e : win0_3.xinj (grid0.coords t) j = ix2 (⟨(j 0).val, hj0⟩ : Fin 512) (⟨(j 1).val, hq⟩ : Fin 3072) :=
    funext fun a => match a with | ⟨0, _⟩ => Fin.ext rfl | ⟨1, _⟩ => Fin.ext rfl
  have he0 : (((win0_3.blk t).view.emb j) 0 : Nat) = (j 0).val := by
    show win0_3.index t 0 * 512 + 1 * (j 0).val = _
    rw [i30]; omega
  have he1 : (((win0_3.blk t).view.emb j) 1 : Nat) = t.val * 3072 + (j 1).val := by
    show win0_3.index t 1 * 3072 + 1 * (j 1).val = _
    rw [i31]; omega
  show projBlock (F := Ideal) (iblk m c 0 t) X1 X2 (win0_3.xinj (grid0.coords t) j) = _
  rw [projBlock_eq, e, pay_apply, View.read_apply]
  unfold logitsAt proj
  refine congrArg Ideal.tanh ?_
  refine congrArg₂ (· + ·) (Finset.sum_congr rfl fun k _ => congrArg₂ (· * ·) ?_ ?_) ?_
  · exact hblk_apply m c t _ _ he0 rfl
  · have hb : ∀ a, ((ix2 (⟨(j 1).val, hq⟩ : Fin 3072) k : S3072x256.Idx) a).val < win0_1.xsize (grid0.coords t) a := fun a =>
      match a with
      | ⟨0, _⟩ => by show (j 1).val < win0_1.xsize (grid0.coords t) 0; rw [x10]; exact hj1
      | ⟨1, _⟩ => by show k.val < win0_1.xsize (grid0.coords t) 1; rw [x11]; exact k.isLt
    rw [cut_at win0_1 (grid0.coords t) X1 _ hb, h1]
    exact wblk_apply m c t _ _ he1 rfl
  · have hb : ∀ a, ((ix2 (0 : Fin 1) (⟨(j 1).val, hq⟩ : Fin 3072) : S1x3072.Idx) a).val < win0_2.xsize (grid0.coords t) a := fun a =>
      match a with
      | ⟨0, _⟩ => by show 0 < win0_2.xsize (grid0.coords t) 0; rw [x20]; exact Nat.one_pos
      | ⟨1, _⟩ => by show (j 1).val < win0_2.xsize (grid0.coords t) 1; rw [x21]; exact hj1
    rw [cut_at win0_2 (grid0.coords t) X2 _ hb, h2]
    exact bblk_apply m c t _ _ rfl he1

end Cert.KernelIdeal.Hand

end
-- ==== Proof.Ideal.Run.lean ====
/-
  The idealized kernel's run.

  At every grid point the body is handed the hidden-state buffer at its block, the weight and bias buffers at their
  blocks on the parts inside the arrays (anything elsewhere), and the output buffer at anything; it hands back the
  inputs untouched and the output buffer at the stored block, whose written-back part is the block of the logits.  So
  every weakly fair execution of the program terminates, the output array ends at what the write-backs leave, and every
  other array ends as the host lines around the region leave it; in particular the nine arguments end unchanged.
-/
import proofs.«119013_j23081154248766_2_alg».proof.Proof.Ideal.Block
import Idealize.ShloMosaic.Lib.Pipeline.FrameSuffix

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- What the body is called with at point t, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the three buffers whose blocks may overhang their arrays stated on the part inside only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  simp only [after_0, after_1, after_2, after_3, Window.cut_fill]
  iintro ⟨HΦ, Ho, ⟨%d0, H0⟩, ⟨%d1, H1⟩, ⟨%d2, H2⟩, ⟨%d3, H3⟩⟩
  iapply (sound_kernel (F := Ideal) c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists projBlock (F := Ideal) (iblk m c 0 t) (win0_1.fill (grid0.coords t) d1 (iblk m c 1 t)) (win0_2.fill (grid0.coords t) d2 (iblk m c 2 t))
  rw [← cut_projBlock m c t _ _ (win0_1.cut_fill _ _ _) (win0_2.cut_fill _ _ _), Window.fill_cut]
  iexact H3

/-- The library's body obligation, at every point. -/
theorem body_obligation (c : Dev nD) : BodyObligationLoose (dats m 0 c) (defs₀ (F := Ideal)) Variants.none () Set.univ := fun t => by
  rw [bigSep_W0, bigSep_W0]
  exact sound_body m c t

set_option backward.isDefEq.respectTransparency.types false in
/-- Every weakly fair execution terminates; the region's arrays end at what the write-backs leave and every other
    unscoped buffer as the host line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The nine argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.Ideal.Value.lean ====
/-
  What the idealized kernel's two results hold after the run.

  The 33 column blocks written back tile the 512 × 100000 output (column j lies in block j / 3072, and the last block's
  1696 columns reach column 99999), and each is the matching block of the logits, so the output array ends holding
  L[r, j] = tanh (∑ k, h[r, k] · W[j, k] + b[0, j]) everywhere.  The second result is the hidden state with a leading
  unit axis, computed by the one host line after the region from the hidden-state array, which the region only reads.
-/
import proofs.«119013_j23081154248766_2_alg».proof.Proof.Ideal.Run
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

/-- What point t writes back is block t of the logits. -/
theorem flushed_3 (c : Dev nD) (t : Fin cfg0.N) :
    (dats m 0 c).flushed 3 t = ((cfg0.win 3).blk t).view.read (Elt Ideal) (logitsAt m c) := by
  show (cfg0.win 3).cut (grid0.coords t) ((dats m 0 c).after 3 t) = _
  rw [after_3]
  exact win0_3.cut_fill _ _ _

/-- Column j of the output lies in the block of point j / 3072. -/
theorem mem_blk3 (t : Fin cfg0.N) (i : S512x100000.Idx) (ht : t.val = (i 1).val / 3072) :
    i ∈ ((cfg0.win 3).blk t).view.set := by
  obtain ⟨-, -, -, -, -, -, i30, i31, -, -, -, -, x30, xlt, xeq⟩ := idx_facts t
  have hN : cfg0.N = 33 := N_0
  have htN : t.val < 33 := by have := t.isLt; omega
  have h0 : (i 0 : Nat) < 512 := (i 0).isLt
  have h1 : (i 1 : Nat) < 100000 := (i 1).isLt
  show i ∈ ((View.whole main_v40).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + win0_3.xsize (grid0.coords t) 0
    rw [i30, x30]; omega
  | ⟨1, _⟩ =>
    show win0_3.index t 1 * 3072 ≤ (i 1 : Nat) ∧ (i 1 : Nat) < win0_3.index t 1 * 3072 + win0_3.xsize (grid0.coords t) 1
    rw [i31]
    by_cases h : t.val < 32
    · rw [xlt h]; omega
    · rw [xeq (by omega)]; omega

/-- The output array ends holding the logits. -/
theorem final_logits (c : Dev nD) : (dats m 0 c).arrAt 3 cfg0.N = logitsAt m c :=
  (dats m 0 c).arrAt_eq_of_cover 3 (logitsAt m c) (fun t _ => flushed_3 m c t) fun i =>
    have h1 : (i 1 : Nat) < 100000 := (i 1).isLt
    ⟨⟨(i 1 : Nat) / 3072, by rw [show cfg0.N = 33 from N_0]; omega⟩, flush0_3 _, mem_blk3 _ i rfl⟩

/-- The hidden state with a leading unit axis, from the hidden-state array as the region finds it. -/
def hiddenAt (c : Dev nD) : S1x512x256.Idx → EReal :=
  broadcastInDim S1x512x256 ![1, 2] Facts₀.bcast_S512x256_S1x512x256_1_2 (V m c main_v38 : S512x256.Idx → EReal)

/-- The host line after the region computes it from the hidden-state array, which the region leaves as it found it. -/
theorem tail_hidden (c : Dev nD) :
    Pipeline.afterTail₀ cfgs (dats m) 0 (V0 m) [hostOps1] c main_v41 = hiddenAt m c := by
  unfold Pipeline.afterTail₀ hiddenAt
  show StableHlo.after hostOps1 _ (Proc.devRef .tc main_v41) = _
  after_results
  refine congrArg _ ?_
  exact (Pipeline.withArrays_arr spec0 launch0.win.arr_inj c _ _ 0).trans
    (((dats m 0 c).arrAt_in 0 rfl _).trans (A_eq m c 0))

/-- The idealized kernel runs; its first result ends at the logits, its second at the hidden state with a leading unit
    axis, and its nine arguments end unchanged. -/
theorem value_run : θ_run defs (onTc (τ := τ) (main (F := Ideal))) ⟨m, fun _ => 0, ρ⟩ (fun r => ∀ c : Dev nD,
      r.2.mem ((c.tc : Thread nD τ).loc main_v40) = logitsAt m c
      ∧ r.2.mem ((c.tc : Thread nD τ).loc main_v41) = hiddenAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 3).trans (final_logits m c),
      ((h c).2 main_v41 (Pipeline.mem_restRefs_of main_v41 (by decide) (by decide))).trans (tail_hidden m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 1).trans (((dats m 0 c).arrAt_in 1 rfl _).trans ((A_eq m c 1).trans (V_main_arg7 m c))),
      (((h c).2 main_arg8 (Pipeline.mem_restRefs_of main_arg8 (by decide) (by decide))).trans (W_main_arg8 m (dats m) c))⟩)
    (run_main m ρ)

end Cert.KernelIdeal.Hand

end
-- ==== Proof.Ideal.Host.lean ====
/-
  The bias row the region is handed.

  Of the host lines before the region only the last writes the bias row: it recasts the 100000 biases as a 1 × 100000
  row, so entry (0, j) of the row the region finds is bias j of the argument.
-/
import proofs.«119013_j23081154248766_2_alg».proof.Proof.Ideal.Data
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ)

/-- The bias row as the region finds it is the bias argument recast as one row. -/
theorem V_bias (c : Dev nD) : (V m c main_v39 : S1x100000.Idx → EReal)
    = shapeCast S1x100000 (m ((c : Thread nD τ).loc main_arg8) : S100000.Idx → EReal) Facts₀.shapeCasts_S100000_S1x100000 := by
  dsimp only [V, V0]
  simp only [hostOps0, hostOps0_1, hostOps0_2, List.flatten_cons, List.flatten_nil, List.append_nil, List.cons_append, List.nil_append]
  after_results
  rfl

/-- Entry (0, j) of it is bias j. -/
theorem V_bias_apply (c : Dev nD) (q : Fin 100000) :
    (V m c main_v39 : S1x100000.Idx → EReal) (ix2 (0 : Fin 1) q) = (m ((c : Thread nD τ).loc main_arg8) : S100000.Idx → EReal) (ix1 q) := by
  rw [V_bias]
  exact shapeCast_a_1a_apply _ _ 0 q

end Cert.KernelIdeal.Hand

end
-- ==== Proof.RefRun.lean ====
/- What the reference computes, as a straight line of array operations on one device and its run read back.
   The reference is one step of a gated recurrent unit followed by a dense layer: the rows of an embedding table are
   gathered at the token indices (an index below zero counted from the end, a row outside the table read as NaN),
   x = rows + b_ih and y = h W_hh^T + b_hh are formed, the gates are r = 1 / (1 + exp (-(x_r + y_r))),
   z = 1 / (1 + exp (-(x_z + y_z))), n = tanh (x_n + r * y_n), the new state is h' = (1 - z) * n + z * h, and the
   two results are tanh (h' W^T + b) and h' itself with a leading axis of length one.
   Below: the operations in order as a list (the two outlined functions' operations at their call sites), the
   program as that list run in sequence, and the statement that every weakly fair execution terminates with each
   result array at the operations' composed term of the argument arrays and every argument array unchanged. -/
import proofs.«119013_j23081154248766_2_alg».proof.ReferenceIdeal
import proofs.«119013_j23081154248766_2_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The composed terms -/

/-- The token indices as a column: an index below zero has the table's length added, then one trailing axis. -/
def idx (a0 : (⟨S512, .i32⟩ : BufTy).Contents (Elt Ideal)) : (⟨S512x1, .i32⟩ : BufTy).Contents (Elt Ideal) :=
  broadcastInDim S512x1 ![0] bcast_S512_S512x1_0 (select (cmpi .slt a0 (broadcastInDim S512 ![] bcast_S_S512 (constantI S_ 32 0#32))) (addi a0 (broadcastInDim S512 ![] bcast_S_S512 (constantI S_ 32 100000#32))) a0)

/-- The gathered rows of the table, one column per token: the column of an index outside `0 … 99999` is NaN. -/
def rows (a0 : (⟨S512, .i32⟩ : BufTy).Contents (Elt Ideal)) (a3 : (⟨S768x100000, .f32⟩ : BufTy).Contents (Elt Ideal)) : (⟨S768x512, .f32⟩ : BufTy).Contents (Elt Ideal) :=
  select (broadcastInDim S768x512 ![1] bcast_S512_S768x512_1 (Host.reduce IntOp.andi (andi (cmpi .sge (idx a0) (broadcastInDim S512x1 ![] bcast_S_S512x1 (constantI S_ 32 0#32))) (cmpi .sle (idx a0) (broadcastInDim S512x1 ![0, 1] bcast_S1x1_S512x1_0_1 (broadcastInDim S1x1 ![1] bcast_S1_S1x1_1 (constantI S1 32 99999#32))))) (constantI S_ 1 1#1) reducesTo_S512x1_S512_d1 h_S_)) (Host.gather gather_S768x100000_S512x1_S768x512_0_1_n_n_1_1_7681 a3 (idx a0)) (broadcastInDim S768x512 ![] bcast_S_S768x512 (constant (F := Ideal) S_ .f32 0x7FC00000#32))

/-- The input side of the three gates: the gathered rows, one row per token, plus the input bias. -/
def gi (a0 : (⟨S512, .i32⟩ : BufTy).Contents (Elt Ideal)) (a3 : (⟨S768x100000, .f32⟩ : BufTy).Contents (Elt Ideal)) (a5 : (⟨S768, .f32⟩ : BufTy).Contents (Elt Ideal)) : (⟨S512x768, .f32⟩ : BufTy).Contents (Elt Ideal) :=
  addf (F := Ideal) (φ := .f32) (transpose S512x768 [1, 0] (rows a0 a3) transposes_S768x512_S512x768_1_0) (broadcastInDim S512x768 ![0, 1] bcast_S1x768_S512x768_0_1 (broadcastInDim S1x768 ![1] bcast_S768_S1x768_1 a5))

/-- The hidden side of the three gates: the old state times the transposed hidden weights, plus the hidden bias. -/
def gh (a2 : (⟨S1x512x256, .f32⟩ : BufTy).Contents (Elt Ideal)) (a4 : (⟨S768x256, .f32⟩ : BufTy).Contents (Elt Ideal)) (a6 : (⟨S768, .f32⟩ : BufTy).Contents (Elt Ideal)) : (⟨S512x768, .f32⟩ : BufTy).Contents (Elt Ideal) :=
  addf (F := Ideal) (φ := .f32) (Host.dotGeneral (F := Ideal) (φ₁ := .f32) (φ₂ := .f32) dot_S512x256_S256x768_S512x768_1_0_0_1_n_n none (shapeCast S512x256 a2 shapeCasts_S1x512x256_S512x256) (transpose S256x768 [1, 0] a4 transposes_S768x256_S256x768_1_0)) (broadcastInDim S512x768 ![0, 1] bcast_S1x768_S512x768_0_1 (broadcastInDim S1x768 ![1] bcast_S768_S1x768_1 a6))

/-- the new hidden state as the reference's host operations compute it from six of the argument arrays (main_arg1 is unused) -/
def hnew (a0 : (⟨S512, .i32⟩ : BufTy).Contents (Elt Ideal)) (a2 : (⟨S1x512x256, .f32⟩ : BufTy).Contents (Elt Ideal)) (a3 : (⟨S768x100000, .f32⟩ : BufTy).Contents (Elt Ideal)) (a4 : (⟨S768x256, .f32⟩ : BufTy).Contents (Elt Ideal)) (a5 a6 : (⟨S768, .f32⟩ : BufTy).Contents (Elt Ideal)) : (⟨S512x256, .f32⟩ : BufTy).Contents (Elt Ideal) :=
  addf (F := Ideal) (φ := .f32) (mulf (F := Ideal) (φ := .f32) (subf (F := Ideal) (φ := .f32) (broadcastInDim S512x256 ![] bcast_S_S512x256 (constant (F := Ideal) S_ .f32 0x3F800000#32)) (Host.divf (F := Ideal) (φ := .f32) (broadcastInDim S512x256 ![] bcast_S_S512x256 (constant (F := Ideal) S_ .f32 0x3F800000#32)) (addf (F := Ideal) (φ := .f32) (broadcastInDim S512x256 ![] bcast_S_S512x256 (constant (F := Ideal) S_ .f32 0x3F800000#32)) (Host.exp (F := Ideal) (φ := .f32) (Host.negf (F := Ideal) (φ := .f32) (addf (F := Ideal) (φ := .f32) (extractStridedSlice S512x256 ![0, 256] (gi a0 a3 a5) slices_S512x768_S512x256_0_256) (extractStridedSlice S512x256 ![0, 256] (gh a2 a4 a6) slices_S512x768_S512x256_0_256))))))) (Host.tanh (F := Ideal) (φ := .f32) (addf (F := Ideal) (φ := .f32) (extractStridedSlice S512x256 ![0, 512] (gi a0 a3 a5) slices_S512x768_S512x256_0_512) (mulf (F := Ideal) (φ := .f32) (Host.divf (F := Ideal) (φ := .f32) (broadcastInDim S512x256 ![] bcast_S_S512x256 (constant (F := Ideal) S_ .f32 0x3F800000#32)) (addf (F := Ideal) (φ := .f32) (broadcastInDim S512x256 ![] bcast_S_S512x256 (constant (F := Ideal) S_ .f32 0x3F800000#32)) (Host.exp (F := Ideal) (φ := .f32) (Host.negf (F := Ideal) (φ := .f32) (addf (F := Ideal) (φ := .f32) (extractStridedSlice S512x256 ![0, 0] (gi a0 a3 a5) slices_S512x768_S512x256_0_0) (extractStridedSlice S512x256 ![0, 0] (gh a2 a4 a6) slices_S512x768_S512x256_0_0)))))) (extractStridedSlice S512x256 ![0, 512] (gh a2 a4 a6) slices_S512x768_S512x256_0_512))))) (mulf (F := Ideal) (φ := .f32) (Host.divf (F := Ideal) (φ := .f32) (broadcastInDim S512x256 ![] bcast_S_S512x256 (constant (F := Ideal) S_ .f32 0x3F800000#32)) (addf (F := Ideal) (φ := .f32) (broadcastInDim S512x256 ![] bcast_S_S512x256 (constant (F := Ideal) S_ .f32 0x3F800000#32)) (Host.exp (F := Ideal) (φ := .f32) (Host.negf (F := Ideal) (φ := .f32) (addf (F := Ideal) (φ := .f32) (extractStridedSlice S512x256 ![0, 256] (gi a0 a3 a5) slices_S512x768_S512x256_0_256) (extractStridedSlice S512x256 ![0, 256] (gh a2 a4 a6) slices_S512x768_S512x256_0_256)))))) (shapeCast S512x256 a2 shapeCasts_S1x512x256_S512x256))

/-- The first result: tanh of the state times the transposed output weights plus the output bias. -/
def logits (h : (⟨S512x256, .f32⟩ : BufTy).Contents (Elt Ideal)) (a7 : (⟨S100000x256, .f32⟩ : BufTy).Contents (Elt Ideal)) (a8 : (⟨S100000, .f32⟩ : BufTy).Contents (Elt Ideal)) : (⟨S512x100000, .f32⟩ : BufTy).Contents (Elt Ideal) :=
  Host.tanh (F := Ideal) (φ := .f32) (addf (F := Ideal) (φ := .f32) (Host.dotGeneral (F := Ideal) (φ₁ := .f32) (φ₂ := .f32) dot_S512x256_S256x100000_S512x100000_1_0_0_1_n_n none h (transpose S256x100000 [1, 0] a7 transposes_S100000x256_S256x100000_1_0)) (broadcastInDim S512x100000 ![0, 1] bcast_S1x100000_S512x100000_0_1 (broadcastInDim S1x100000 ![1] bcast_S100000_S1x100000_1 a8)))

/-- The second result: the state with a leading axis of length one. -/
def hidden (h : (⟨S512x256, .f32⟩ : BufTy).Contents (Elt Ideal)) : (⟨S1x512x256, .f32⟩ : BufTy).Contents (Elt Ideal) :=
  broadcastInDim S1x512x256 ![1, 2] bcast_S512x256_S1x512x256_1_2 h

/-! ## The operations -/

/-- @main's 73 operations in order, the outlined functions' at their call sites: the reshape of the old state; the
    gather's twenty-three (the index made non-negative — the comparison with zero, the length added, the select —,
    its trailing axis, the bounds test reduced over that axis, the gather, the NaN splat and the select against it)
    into the call's own buffers; then the forty-nine of the gates, the new state and the two results. -/
abbrev ops : List (HloOp τ sig (Elt Ideal)) :=
  [
    StableHlo.reshape main_arg2 main_v0 rfl shapeCasts_S1x512x256_S512x256,
    StableHlo.TRef.nullary main_call0.c (constantI S_ 32 0#32),
    StableHlo.TRef.unary main_call0.c main_call0.v0 (broadcastInDim S512 ![] bcast_S_S512),
    StableHlo.TRef.binary (.of main_arg0) main_call0.v0 main_call0.v1 (cmpi .slt),
    StableHlo.TRef.nullary main_call0.c_0 (constantI S_ 32 100000#32),
    StableHlo.TRef.unary main_call0.c_0 main_call0.v2 (broadcastInDim S512 ![] bcast_S_S512),
    StableHlo.TRef.binary (.of main_arg0) main_call0.v2 main_call0.v3 addi,
    StableHlo.TRef.ternary main_call0.v1 main_call0.v3 (.of main_arg0) main_call0.call0.v0 select,
    StableHlo.TRef.unary main_call0.call0.v0 main_call0.v5 (broadcastInDim S512x1 ![0] bcast_S512_S512x1_0),
    StableHlo.TRef.nullary main_call0.c_1 (constantI S1 32 99999#32),
    StableHlo.TRef.nullary main_call0.c_2 (constantI S_ 32 0#32),
    StableHlo.TRef.unary main_call0.c_2 main_call0.v6 (broadcastInDim S512x1 ![] bcast_S_S512x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S512x1 ![0, 1] bcast_S1x1_S512x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S512x1_S512_d1 h_S_),
    StableHlo.TRef.binary (.of main_arg3) main_call0.v5 main_call0.v13 (fun x i => Host.gather gather_S768x100000_S512x1_S768x512_0_1_n_n_1_1_7681 x i),
    StableHlo.TRef.unary main_call0.v12 main_call0.v14 (broadcastInDim S768x512 ![1] bcast_S512_S768x512_1),
    StableHlo.TRef.nullary main_call0.cst (constant (F := Ideal) S_ .f32 0x7FC00000#32),
    StableHlo.TRef.unary main_call0.cst main_call0.v15 (broadcastInDim S768x512 ![] bcast_S_S768x512),
    StableHlo.TRef.ternary main_call0.v14 main_call0.v13 main_call0.v15 main_call0.v16 select,
    StableHlo.unary main_v1 main_v2 ((transpose S512x768 [1, 0] · transposes_S768x512_S512x768_1_0) : (⟨S768x512, .f32⟩ : BufTy).Contents (Elt Ideal) → (⟨S512x768, .f32⟩ : BufTy).Contents (Elt Ideal)),
    StableHlo.unary main_arg5 main_v3 (broadcastInDim S1x768 ![1] bcast_S768_S1x768_1 : (⟨S768, .f32⟩ : BufTy).Contents (Elt Ideal) → (⟨S1x768, .f32⟩ : BufTy).Contents (Elt Ideal)),
    StableHlo.unary main_v3 main_v4 (broadcastInDim S512x768 ![0, 1] bcast_S1x768_S512x768_0_1 : (⟨S1x768, .f32⟩ : BufTy).Contents (Elt Ideal) → (⟨S512x768, .f32⟩ : BufTy).Contents (Elt Ideal)),
    StableHlo.binary main_v2 main_v4 main_v5 (addf (F := Ideal) (φ := .f32) : (⟨S512x768, .f32⟩ : BufTy).Contents (Elt Ideal) → (⟨S512x768, .f32⟩ : BufTy).Contents (Elt Ideal) → (⟨S512x768, .f32⟩ : BufTy).Contents (Elt Ideal)),
    StableHlo.unary main_arg4 main_v6 ((transpose S256x768 [1, 0] · transposes_S768x256_S256x768_1_0) : (⟨S768x256, .f32⟩ : BufTy).Contents (Elt Ideal) → (⟨S256x768, .f32⟩ : BufTy).Contents (Elt Ideal)),
    StableHlo.binary main_v0 main_v6 main_v7 ((fun l r => Host.dotGeneral (F := Ideal) (φ₁ := .f32) (φ₂ := .f32) dot_S512x256_S256x768_S512x768_1_0_0_1_n_n none l r) : (⟨S512x256, .f32⟩ : BufTy).Contents (Elt Ideal) → (⟨S256x768, .f32⟩ : BufTy).Contents (Elt Ideal) → (⟨S512x768, .f32⟩ : BufTy).Contents (Elt Ideal)),
    StableHlo.unary main_arg6 main_v8 (broadcastInDim S1x768 ![1] bcast_S768_S1x768_1 : (⟨S768, .f32⟩ : BufTy).Contents (Elt Ideal) → (⟨S1x768, .f32⟩ : BufTy).Contents (Elt Ideal)),
    StableHlo.unary main_v8 main_v9 (broadcastInDim S512x768 ![0, 1] bcast_S1x768_S512x768_0_1 : (⟨S1x768, .f32⟩ : BufTy).Contents (Elt Ideal) → (⟨S512x768, .f32⟩ : BufTy).Contents (Elt Ideal)),
    StableHlo.binary main_v7 main_v9 main_v10 (addf (F := Ideal) (φ := .f32) : (⟨S512x768, .f32⟩ : BufTy).Contents (Elt Ideal) → (⟨S512x768, .f32⟩ : BufTy).Contents (Elt Ideal) → (⟨S512x768, .f32⟩ : BufTy).Contents (Elt Ideal)),
    StableHlo.unary main_v5 main_v11 ((extractStridedSlice S512x256 ![0, 0] · slices_S512x768_S512x256_0_0) : (⟨S512x768, .f32⟩ : BufTy).Contents (Elt Ideal) → (⟨S512x256, .f32⟩ : BufTy).Contents (Elt Ideal)),
    StableHlo.unary main_v5 main_v12 ((extractStridedSlice S512x256 ![0, 256] · slices_S512x768_S512x256_0_256) : (⟨S512x768, .f32⟩ : BufTy).Contents (Elt Ideal) → (⟨S512x256, .f32⟩ : BufTy).Contents (Elt Ideal)),
    StableHlo.unary main_v5 main_v13 ((extractStridedSlice S512x256 ![0, 512] · slices_S512x768_S512x256_0_512) : (⟨S512x768, .f32⟩ : BufTy).Contents (Elt Ideal) → (⟨S512x256, .f32⟩ : BufTy).Contents (Elt Ideal)),
    StableHlo.unary main_v10 main_v14 ((extractStridedSlice S512x256 ![0, 0] · slices_S512x768_S512x256_0_0) : (⟨S512x768, .f32⟩ : BufTy).Contents (Elt Ideal) → (⟨S512x256, .f32⟩ : BufTy).Contents (Elt Ideal)),
    StableHlo.unary main_v10 main_v15 ((extractStridedSlice S512x256 ![0, 256] · slices_S512x768_S512x256_0_256) : (⟨S512x768, .f32⟩ : BufTy).Contents (Elt Ideal) → (⟨S512x256, .f32⟩ : BufTy).Contents (Elt Ideal)),
    StableHlo.unary main_v10 main_v16 ((extractStridedSlice S512x256 ![0, 512] · slices_S512x768_S512x256_0_512) : (⟨S512x768, .f32⟩ : BufTy).Contents (Elt Ideal) → (⟨S512x256, .f32⟩ : BufTy).Contents (Elt Ideal)),
    StableHlo.binary main_v11 main_v14 main_v17 (addf (F := Ideal) (φ := .f32) : (⟨S512x256, .f32⟩ : BufTy).Contents (Elt Ideal) → (⟨S512x256, .f32⟩ : BufTy).Contents (Elt Ideal) → (⟨S512x256, .f32⟩ : BufTy).Contents (Elt Ideal)),
    StableHlo.unary main_v17 main_v18 (Host.negf (F := Ideal) (φ := .f32) : (⟨S512x256, .f32⟩ : BufTy).Contents (Elt Ideal) → (⟨S512x256, .f32⟩ : BufTy).Contents (Elt Ideal)),
    StableHlo.unary main_v18 main_v19 (Host.exp (F := Ideal) (φ := .f32) : (⟨S512x256, .f32⟩ : BufTy).Contents (Elt Ideal) → (⟨S512x256, .f32⟩ : BufTy).Contents (Elt Ideal)),
    StableHlo.nullary main_cst (constant (F := Ideal) S_ .f32 0x3F800000#32),
    StableHlo.unary main_cst main_v20 (broadcastInDim S512x256 ![] bcast_S_S512x256 : (⟨S_, .f32⟩ : BufTy).Contents (Elt Ideal) → (⟨S512x256, .f32⟩ : BufTy).Contents (Elt Ideal)),
    StableHlo.binary main_v20 main_v19 main_v21 (addf (F := Ideal) (φ := .f32) : (⟨S512x256, .f32⟩ : BufTy).Contents (Elt Ideal) → (⟨S512x256, .f32⟩ : BufTy).Contents (Elt Ideal) → (⟨S512x256, .f32⟩ : BufTy).Contents (Elt Ideal)),
    StableHlo.nullary main_cst_0 (constant (F := Ideal) S_ .f32 0x3F800000#32),
    StableHlo.unary main_cst_0 main_v22 (broadcastInDim S512x256 ![] bcast_S_S512x256 : (⟨S_, .f32⟩ : BufTy).Contents (Elt Ideal) → (⟨S512x256, .f32⟩ : BufTy).Contents (Elt Ideal)),
    StableHlo.binary main_v22 main_v21 main_v23 (Host.divf (F := Ideal) (φ := .f32) : (⟨S512x256, .f32⟩ : BufTy).Contents (Elt Ideal) → (⟨S512x256, .f32⟩ : BufTy).Contents (Elt Ideal) → (⟨S512x256, .f32⟩ : BufTy).Contents (Elt Ideal)),
    StableHlo.binary main_v12 main_v15 main_v24 (addf (F := Ideal) (φ := .f32) : (⟨S512x256, .f32⟩ : BufTy).Contents (Elt Ideal) → (⟨S512x256, .f32⟩ : BufTy).Contents (Elt Ideal) → (⟨S512x256, .f32⟩ : BufTy).Contents (Elt Ideal)),
    StableHlo.unary main_v24 main_v25 (Host.negf (F := Ideal) (φ := .f32) : (⟨S512x256, .f32⟩ : BufTy).Contents (Elt Ideal) → (⟨S512x256, .f32⟩ : BufTy).Contents (Elt Ideal)),
    StableHlo.unary main_v25 main_v26 (Host.exp (F := Ideal) (φ := .f32) : (⟨S512x256, .f32⟩ : BufTy).Contents (Elt Ideal) → (⟨S512x256, .f32⟩ : BufTy).Contents (Elt Ideal)),
    StableHlo.nullary main_cst_1 (constant (F := Ideal) S_ .f32 0x3F800000#32),
    StableHlo.unary main_cst_1 main_v27 (broadcastInDim S512x256 ![] bcast_S_S512x256 : (⟨S_, .f32⟩ : BufTy).Contents (Elt Ideal) → (⟨S512x256, .f32⟩ : BufTy).Contents (Elt Ideal)),
    StableHlo.binary main_v27 main_v26 main_v28 (addf (F := Ideal) (φ := .f32) : (⟨S512x256, .f32⟩ : BufTy).Contents (Elt Ideal) → (⟨S512x256, .f32⟩ : BufTy).Contents (Elt Ideal) → (⟨S512x256, .f32⟩ : BufTy).Contents (Elt Ideal)),
    StableHlo.nullary main_cst_2 (constant (F := Ideal) S_ .f32 0x3F800000#32),
    StableHlo.unary main_cst_2 main_v29 (broadcastInDim S512x256 ![] bcast_S_S512x256 : (⟨S_, .f32⟩ : BufTy).Contents (Elt Ideal) → (⟨S512x256, .f32⟩ : BufTy).Contents (Elt Ideal)),
    StableHlo.binary main_v29 main_v28 main_v30 (Host.divf (F := Ideal) (φ := .f32) : (⟨S512x256, .f32⟩ : BufTy).Contents (Elt Ideal) → (⟨S512x256, .f32⟩ : BufTy).Contents (Elt Ideal) → (⟨S512x256, .f32⟩ : BufTy).Contents (Elt Ideal)),
    StableHlo.binary main_v23 main_v16 main_v31 (mulf (F := Ideal) (φ := .f32) : (⟨S512x256, .f32⟩ : BufTy).Contents (Elt Ideal) → (⟨S512x256, .f32⟩ : BufTy).Contents (Elt Ideal) → (⟨S512x256, .f32⟩ : BufTy).Contents (Elt Ideal)),
    StableHlo.binary main_v13 main_v31 main_v32 (addf (F := Ideal) (φ := .f32) : (⟨S512x256, .f32⟩ : BufTy).Contents (Elt Ideal) → (⟨S512x256, .f32⟩ : BufTy).Contents (Elt Ideal) → (⟨S512x256, .f32⟩ : BufTy).Contents (Elt Ideal)),
    StableHlo.unary main_v32 main_v33 (Host.tanh (F := Ideal) (φ := .f32) : (⟨S512x256, .f32⟩ : BufTy).Contents (Elt Ideal) → (⟨S512x256, .f32⟩ : BufTy).Contents (Elt Ideal)),
    StableHlo.nullary main_cst_3 (constant (F := Ideal) S_ .f32 0x3F800000#32),
    StableHlo.unary main_cst_3 main_v34 (broadcastInDim S512x256 ![] bcast_S_S512x256 : (⟨S_, .f32⟩ : BufTy).Contents (Elt Ideal) → (⟨S512x256, .f32⟩ : BufTy).Contents (Elt Ideal)),
    StableHlo.binary main_v34 main_v30 main_v35 (subf (F := Ideal) (φ := .f32) : (⟨S512x256, .f32⟩ : BufTy).Contents (Elt Ideal) → (⟨S512x256, .f32⟩ : BufTy).Contents (Elt Ideal) → (⟨S512x256, .f32⟩ : BufTy).Contents (Elt Ideal)),
    StableHlo.binary main_v35 main_v33 main_v36 (mulf (F := Ideal) (φ := .f32) : (⟨S512x256, .f32⟩ : BufTy).Contents (Elt Ideal) → (⟨S512x256, .f32⟩ : BufTy).Contents (Elt Ideal) → (⟨S512x256, .f32⟩ : BufTy).Contents (Elt Ideal)),
    StableHlo.binary main_v30 main_v0 main_v37 (mulf (F := Ideal) (φ := .f32) : (⟨S512x256, .f32⟩ : BufTy).Contents (Elt Ideal) → (⟨S512x256, .f32⟩ : BufTy).Contents (Elt Ideal) → (⟨S512x256, .f32⟩ : BufTy).Contents (Elt Ideal)),
    StableHlo.binary main_v36 main_v37 main_v38 (addf (F := Ideal) (φ := .f32) : (⟨S512x256, .f32⟩ : BufTy).Contents (Elt Ideal) → (⟨S512x256, .f32⟩ : BufTy).Contents (Elt Ideal) → (⟨S512x256, .f32⟩ : BufTy).Contents (Elt Ideal)),
    StableHlo.unary main_arg7 main_v39 ((transpose S256x100000 [1, 0] · transposes_S100000x256_S256x100000_1_0) : (⟨S100000x256, .f32⟩ : BufTy).Contents (Elt Ideal) → (⟨S256x100000, .f32⟩ : BufTy).Contents (Elt Ideal)),
    StableHlo.binary main_v38 main_v39 main_v40 ((fun l r => Host.dotGeneral (F := Ideal) (φ₁ := .f32) (φ₂ := .f32) dot_S512x256_S256x100000_S512x100000_1_0_0_1_n_n none l r) : (⟨S512x256, .f32⟩ : BufTy).Contents (Elt Ideal) → (⟨S256x100000, .f32⟩ : BufTy).Contents (Elt Ideal) → (⟨S512x100000, .f32⟩ : BufTy).Contents (Elt Ideal)),
    StableHlo.unary main_arg8 main_v41 (broadcastInDim S1x100000 ![1] bcast_S100000_S1x100000_1 : (⟨S100000, .f32⟩ : BufTy).Contents (Elt Ideal) → (⟨S1x100000, .f32⟩ : BufTy).Contents (Elt Ideal)),
    StableHlo.unary main_v41 main_v42 (broadcastInDim S512x100000 ![0, 1] bcast_S1x100000_S512x100000_0_1 : (⟨S1x100000, .f32⟩ : BufTy).Contents (Elt Ideal) → (⟨S512x100000, .f32⟩ : BufTy).Contents (Elt Ideal)),
    StableHlo.binary main_v40 main_v42 main_v43 (addf (F := Ideal) (φ := .f32) : (⟨S512x100000, .f32⟩ : BufTy).Contents (Elt Ideal) → (⟨S512x100000, .f32⟩ : BufTy).Contents (Elt Ideal) → (⟨S512x100000, .f32⟩ : BufTy).Contents (Elt Ideal)),
    StableHlo.unary main_v43 main_v44 (Host.tanh (F := Ideal) (φ := .f32) : (⟨S512x100000, .f32⟩ : BufTy).Contents (Elt Ideal) → (⟨S512x100000, .f32⟩ : BufTy).Contents (Elt Ideal)),
    StableHlo.unary main_v38 main_v45 (broadcastInDim S1x512x256 ![1, 2] bcast_S512x256_S1x512x256_1_2 : (⟨S512x256, .f32⟩ : BufTy).Contents (Elt Ideal) → (⟨S1x512x256, .f32⟩ : BufTy).Contents (Elt Ideal)) ]

set_option maxRecDepth 8192 in
set_option maxHeartbeats 400000 in
/-- @main is that straight line: the two functions' bodies unfolded at their calls, sequencing computes both sides
    to one chain of steps. -/
theorem main_eq (c : Dev nD) : main (F := Ideal) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., unary_bufs_sub .., binary_bufs_sub .., unary_bufs_sub .., binary_bufs_sub ..,
    unary_bufs_sub .., unary_bufs_sub .., binary_bufs_sub .., unary_bufs_sub .., unary_bufs_sub .., unary_bufs_sub ..,
    unary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub .., binary_bufs_sub .., unary_bufs_sub ..,
    nullary_bufs_sub .., unary_bufs_sub .., binary_bufs_sub .., binary_bufs_sub .., binary_bufs_sub .., binary_bufs_sub ..,
    unary_bufs_sub .., binary_bufs_sub .., unary_bufs_sub .., unary_bufs_sub .., binary_bufs_sub .., unary_bufs_sub ..,
    unary_bufs_sub ..⟩

/-! ## What each buffer holds after the operations -/

set_option maxHeartbeats 400000 in
/-- The buffer of the new state after the operations is `hnew` of the argument buffers' contents before them: each
    operation's result at its own buffer is its function of its operands' contents, every other buffer is
    untouched, and the typed references' transports are the identity at literal references. -/
theorem v38_eq (V : Valuation τ sig (Elt Ideal)) :
    after ops V (main_v38 : DevRef τ sig) = hnew (V (main_arg0 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

set_option maxHeartbeats 400000 in
/-- The first result buffer after the operations. -/
theorem v44_eq (V : Valuation τ sig (Elt Ideal)) :
    after ops V (main_v44 : DevRef τ sig) = logits (hnew (V (main_arg0 : DevRef τ sig)) (V (main_arg2 : DevRef τ sig)) (V (main_arg3 : DevRef τ sig)) (V (main_arg4 : DevRef τ sig)) (V (main_arg5 : DevRef τ sig)) (V (main_arg6 : DevRef τ sig))) (V (main_arg7 : DevRef τ sig)) (V (main_arg8 : DevRef τ sig)) := by
  after_results_simp
  rfl

set_option maxHeartbeats 400000 in
/-- The second result buffer after the operations. -/
theorem v45_eq (V : Valuation τ sig (Elt Ideal)) :
    after ops V (main_v45 : DevRef τ sig) = hidden (hnew (V (main_arg0 : DevRef τ sig)) (V (main_arg2 : DevRef τ sig)) (V (main_arg3 : DevRef τ sig)) (V (main_arg4 : DevRef τ sig)) (V (main_arg5 : DevRef τ sig)) (V (main_arg6 : DevRef τ sig))) := by
  after_results_simp
  rfl

set_option maxHeartbeats 400000 in
/-- No operation writes `main_arg0`. -/
theorem arg0_eq (V : Valuation τ sig (Elt Ideal)) :
    after ops V (main_arg0 : DevRef τ sig) = (V (main_arg0 : DevRef τ sig)) := by
  after_results_simp

set_option maxHeartbeats 400000 in
/-- No operation writes `main_arg1`. -/
theorem arg1_eq (V : Valuation τ sig (Elt Ideal)) :
    after ops V (main_arg1 : DevRef τ sig) = (V (main_arg1 : DevRef τ sig)) := by
  after_results_simp

set_option maxHeartbeats 400000 in
/-- No operation writes `main_arg2`. -/
theorem arg2_eq (V : Valuation τ sig (Elt Ideal)) :
    after ops V (main_arg2 : DevRef τ sig) = (V (main_arg2 : DevRef τ sig)) := by
  after_results_simp

set_option maxHeartbeats 400000 in
/-- No operation writes `main_arg3`. -/
theorem arg3_eq (V : Valuation τ sig (Elt Ideal)) :
    after ops V (main_arg3 : DevRef τ sig) = (V (main_arg3 : DevRef τ sig)) := by
  after_results_simp

set_option maxHeartbeats 400000 in
/-- No operation writes `main_arg4`. -/
theorem arg4_eq (V : Valuation τ sig (Elt Ideal)) :
    after ops V (main_arg4 : DevRef τ sig) = (V (main_arg4 : DevRef τ sig)) := by
  after_results_simp

set_option maxHeartbeats 400000 in
/-- No operation writes `main_arg5`. -/
theorem arg5_eq (V : Valuation τ sig (Elt Ideal)) :
    after ops V (main_arg5 : DevRef τ sig) = (V (main_arg5 : DevRef τ sig)) := by
  after_results_simp

set_option maxHeartbeats 400000 in
/-- No operation writes `main_arg6`. -/
theorem arg6_eq (V : Valuation τ sig (Elt Ideal)) :
    after ops V (main_arg6 : DevRef τ sig) = (V (main_arg6 : DevRef τ sig)) := by
  after_results_simp

set_option maxHeartbeats 400000 in
/-- No operation writes `main_arg7`. -/
theorem arg7_eq (V : Valuation τ sig (Elt Ideal)) :
    after ops V (main_arg7 : DevRef τ sig) = (V (main_arg7 : DevRef τ sig)) := by
  after_results_simp

set_option maxHeartbeats 400000 in
/-- No operation writes `main_arg8`. -/
theorem arg8_eq (V : Valuation τ sig (Elt Ideal)) :
    after ops V (main_arg8 : DevRef τ sig) = (V (main_arg8 : DevRef τ sig)) := by
  after_results_simp

/-! ## The run -/

/-- On every device, from any memory with zero counters: every weakly fair execution of @main terminates with the
    two results at `logits` and `hidden` of the new state `hnew` of the arguments' launch contents, and the nine
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44) = logits (hnew (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8))
      ∧ r.2.mem ((c.tc : Thread nD τ).loc main_v45) = hidden (hnew (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c => ⟨(h c main_v44).trans (v44_eq _), (h c main_v45).trans (v45_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq (defs (F := Ideal)) (main (F := Ideal)) (fun _ => ops) main_eq (fun _ => ops_sub) m ρ)

end Cert.ReferenceIdeal.RefRun

end
-- ==== Proof.RefRead.lean ====
/-
  The reference's logits at an entry, on the extended reals.

  The reference ends by computing tanh(h · Wᵀ + b): it transposes the 100000 × 256 weight table W, multiplies the
  512 × 256 hidden state h by the transpose (one contracted axis, of 256), broadcasts the bias row b of 100000
  words down the 512 rows, adds, and takes tanh entry by entry. Read at the entry in row r and column j that is

      tanh( ∑ₖ h[r, k] · W[j, k]  +  b[j] ),      k over the 256 contracted coordinates:

  the product at (r, j) is the sum over the contracted coordinate of h[r, k] times the transpose's (k, j) entry,
  which is W's (j, k) entry; the bias, broadcast first to one row and then to every row, reads b[j] whatever the
  row; the sum and tanh act entry by entry.
-/
import proofs.«119013_j23081154248766_2_alg».proof.ReferenceIdeal
import proofs.«119013_j23081154248766_2_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRead

open Cert.ReferenceIdeal Cert.ReferenceIdeal.Facts₀
open Idealize.ShloMosaic Idealize.ShloMosaic.ValueIdx
open scoped BigOperators

/-- The product of a 512 × 256 by a 256 × 100000 matrix at the entry (p, q): the sum over the contracted
    coordinate of the products of the entries. -/
theorem dot_apply (h : FVec Ideal S512x256 .f32) (w : FVec Ideal S256x100000 .f32) (p : Fin 512) (q : Fin 100000) :
    Host.dotGeneral (F := Ideal) dot_S512x256_S256x100000_S512x100000_1_0_0_1_n_n none h w (ix2 p q)
      = ∑ k : Fin 256, h (ix2 p k) * w (ix2 k q) := by
  show FloatOps.dotGeneral _ none _ h w (ix2 p q) = _
  rw [Ideal.dotGeneral_apply,
    ← Equiv.sum_comp (contrEquiv1 dot_S512x256_S256x100000_S512x100000_1_0_0_1_n_n 256 rfl rfl).symm]
  refine Finset.sum_congr rfl fun c _ => ?_
  have c2 := contrEquiv1_symm_val dot_S512x256_S256x100000_S512x100000_1_0_0_1_n_n 256 rfl rfl c
  have l2 : dot_S512x256_S256x100000_S512x100000_1_0_0_1_n_n.lhsIdx (ix2 p q)
      ((contrEquiv1 _ 256 rfl rfl).symm c) = ix2 p c := by
    funext ax; apply Fin.ext
    match ax with
    | ⟨0, _⟩ => simp [DotDims.lhsIdx, dot_S512x256_S256x100000_S512x100000_1_0_0_1_n_n]; rfl
    | ⟨1, _⟩ => simp [DotDims.lhsIdx, dot_S512x256_S256x100000_S512x100000_1_0_0_1_n_n]; exact c2
  have r2 : dot_S512x256_S256x100000_S512x100000_1_0_0_1_n_n.rhsIdx (ix2 p q)
      ((contrEquiv1 _ 256 rfl rfl).symm c) = ix2 c q := by
    funext ax; apply Fin.ext
    match ax with
    | ⟨0, _⟩ => simp [DotDims.rhsIdx, dot_S512x256_S256x100000_S512x100000_1_0_0_1_n_n]; exact c2
    | ⟨1, _⟩ => simp [DotDims.rhsIdx, dot_S512x256_S256x100000_S512x100000_1_0_0_1_n_n]; rfl
  rw [l2, r2]

/-- The bias row broadcast to one row and then to all 512 reads, at (p, q), its q-th word. -/
theorem bias_apply (a8 : FVec Ideal S100000 .f32) (p : Fin 512) (q : Fin 100000) :
    broadcastInDim S512x100000 ![0, 1] bcast_S1x100000_S512x100000_0_1
        (broadcastInDim S1x100000 ![1] bcast_S100000_S1x100000_1 a8) (ix2 p q) = a8 (ix1 q) := by
  rw [broadcastInDim_apply (![0, 1]) bcast_S1x100000_S512x100000_0_1 _ (ix2 p q) (ix2 (0 : Fin 1) q)
      (fun a => match a with | ⟨0, _⟩ => rfl | ⟨1, _⟩ => rfl),
    broadcastInDim_apply (![1]) bcast_S100000_S1x100000_1 a8 (ix2 (0 : Fin 1) q) (ix1 q)
      (fun a => match a with | ⟨0, _⟩ => rfl)]

/-- The entry (r, j) of tanh(h · Wᵀ + b) is tanh(∑ₖ h[r, k] · W[j, k] + b[j]). -/
theorem logits_term_apply (h : FVec Ideal S512x256 .f32) (a7 : FVec Ideal S100000x256 .f32) (a8 : FVec Ideal S100000 .f32)
    (i : S512x100000.Idx) :
    (Host.tanh (F := Ideal) (addf (Host.dotGeneral (F := Ideal) dot_S512x256_S256x100000_S512x100000_1_0_0_1_n_n none h
        (transpose S256x100000 [1, 0] a7 transposes_S100000x256_S256x100000_1_0))
      (broadcastInDim S512x100000 ![0, 1] bcast_S1x100000_S512x100000_0_1
        (broadcastInDim S1x100000 ![1] bcast_S100000_S1x100000_1 a8))) : FVec Ideal S512x100000 .f32) i
      = Ideal.tanh ((∑ k : Fin 256, h (ix2 (i 0) k) * a7 (ix2 (i 1) k)) + a8 (ix1 (i 1))) := by
  obtain ⟨p, q, rfl⟩ : ∃ (p : Fin 512) (q : Fin 100000), i = ix2 p q := ⟨i 0, i 1, eq_ix2 i⟩
  show FloatOps.hostUnary .tanh (addf _ _ (ix2 p q)) = _
  rw [Ideal.hostUnary_tanh_def, addf_apply, dot_apply, bias_apply]
  have ht : ∀ k : Fin 256, transpose S256x100000 [1, 0] a7 transposes_S100000x256_S256x100000_1_0 (ix2 k q) = a7 (ix2 q k) :=
    fun k => transpose_ix2_apply a7 transposes_S100000x256_S256x100000_1_0 k q
  simp only [ht]

/-- info: 'Cert.ReferenceIdeal.RefRead.logits_term_apply' depends on axioms: [propext, Classical.choice, Quot.sound] -/
#guard_msgs in #print axioms logits_term_apply

end Cert.ReferenceIdeal.RefRead

end
-- ==== Proof.Bridge.lean ====
/-
  The two idealized programs compute the same two arrays.

  Both programs run the same host lines — the lookup of the 512 token rows, the two gate products, the sigmoids and the
  tanh of a GRU step — on the same arguments, so the hidden state h the kernel's region is handed is the reference's.
  The kernel's first result is L[r, j] = tanh (∑ k, h[r, k] · W[j, k] + b[j]) entry by entry; the reference's is tanh of the
  product of h with the transposed weights plus the bias spread over the rows, which at entry (r, j) is the same sum:
  the transposed weights at (k, j) are W[j, k], and a sum of 256 products in one order.  No law of the extended reals
  beyond that is used, so finiteness of the inputs is not needed.  The second result is h with a leading unit axis on
  both sides.
-/
import proofs.«119013_j23081154248766_2_alg».proof.Proof.Ideal.Value
import proofs.«119013_j23081154248766_2_alg».proof.Proof.Ideal.Host
import proofs.«119013_j23081154248766_2_alg».proof.Proof.RefRun
import proofs.«119013_j23081154248766_2_alg».proof.Proof.RefRead

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ)

/-- The reference's hidden state of the kernel program's argument arrays. -/
def refHidden (c : Dev nD) : S512x256.Idx → EReal :=
  Cert.ReferenceIdeal.RefRun.hnew (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6))

set_option maxHeartbeats 1000000 in
/-- The hidden state the region is handed is the reference's: the same host lines on the same arrays. -/
theorem V_hidden (c : Dev nD) : (V m c main_v38 : S512x256.Idx → EReal) = refHidden m c := by
  unfold refHidden
  dsimp only [V, V0]
  simp only [hostOps0, hostOps0_1, hostOps0_2, List.flatten_cons, List.flatten_nil, List.append_nil, List.cons_append, List.nil_append]
  after_results_simp
  rfl

/-- The kernel's first result is the reference's, entry by entry. -/
theorem logits_eq (c : Dev nD) :
    logitsAt m c = Cert.ReferenceIdeal.RefRun.logits (refHidden m c) (m ((c : Thread nD τ).loc main_arg7)) (m ((c : Thread nD τ).loc main_arg8)) := by
  funext i
  unfold Cert.ReferenceIdeal.RefRun.logits
  refine Eq.trans ?_ (Cert.ReferenceIdeal.RefRead.logits_term_apply _ _ _ i).symm
  unfold logitsAt proj
  exact congrArg Ideal.tanh (congrArg₂ (· + ·)
    (Finset.sum_congr rfl fun k _ => congrArg₂ (· * ·) (congrFun (V_hidden m c) _) (congrFun (V_main_arg7 m c) _))
    (V_bias_apply m c (i 1)))

/-- The kernel's second result is the reference's. -/
theorem hidden_eq (c : Dev nD) : hiddenAt m c = Cert.ReferenceIdeal.RefRun.hidden (refHidden m c) := by
  unfold hiddenAt Cert.ReferenceIdeal.RefRun.hidden
  rw [V_hidden]

end Cert.KernelIdeal.Hand

end
-- ==== Proof.lean ====
/-
  The certificate's claims for the projection kernel  logit = tanh (h_new · W_outᵀ + b_out)  after one GRU step.

  The word-level kernel runs and leaves its nine arguments unchanged (its output window's contents are not named: at
  the word level a matrix product is a function of its whole operands, and the weight buffer's rows past the array's
  end hold values nothing names).  On the extended reals the same holds and both results are named: the output array
  ends at tanh (∑ k, h[r, k] · W[j, k] + b[j]) — the 33 column blocks written back, the last cut at column 99999, tile
  it — and the second result at h with a leading unit axis.  The reference, a host program, runs to the same two arrays
  of the same arguments; the idealization rewrote no operation, so nothing is to be preserved.
-/
import proofs.«119013_j23081154248766_2_alg».proof.Defs
import proofs.«119013_j23081154248766_2_alg».proof.Proof.Gen.Kernel
import proofs.«119013_j23081154248766_2_alg».proof.Proof.Gen.KernelIdeal
import proofs.«119013_j23081154248766_2_alg».proof.Proof.Gen.ReferenceIdeal
import proofs.«119013_j23081154248766_2_alg».proof.Proof.Gen.Pre_finite_inputs
import proofs.«119013_j23081154248766_2_alg».proof.Proof.KernelFrame
import proofs.«119013_j23081154248766_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := Cert.Kernel.HandFrame.frame

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.RefRun.run m ρ)

theorem preserves : Cert.preserves_Kernel_KernelIdeal := trivial

/-- From memories agreeing on the nine arguments both idealized programs end with the logits and the hidden state of
    those arguments. -/
theorem algebraic : Cert.algebraic_KernelIdeal_ReferenceIdeal := by
  intro m ρ m' ρ' _ hagree
  refine ⟨fun c => Cert.KernelIdeal.Hand.logitsAt m c, fun c => Cert.KernelIdeal.Hand.hiddenAt m c,
    Cert.KernelIdeal.Hand.value_run m ρ, ?_⟩
  refine (θ_run Cert.ReferenceIdeal.defs _ _).mono (fun _ h c => ⟨(h c).1.trans ?_, (h c).2.1.trans ?_, (h c).2.2⟩)
    (Cert.ReferenceIdeal.RefRun.run m' ρ')
  · obtain ⟨e0, -, e2, e3, e4, e5, e6, e7, e8⟩ := hagree c
    rw [e0, e2, e3, e4, e5, e6, e7, e8]
    exact (Cert.KernelIdeal.Hand.logits_eq m c).symm
  · obtain ⟨e0, -, e2, e3, e4, e5, e6, -, -⟩ := hagree c
    rw [e0, e2, e3, e4, e5, e6]
    exact (Cert.KernelIdeal.Hand.hidden_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
